-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S256 : Shape := ⟨1, ![256]⟩
abbrev S256x1 : Shape := ⟨2, ![256, 1]⟩
abbrev S2048 : Shape := ⟨1, ![2048]⟩
abbrev S1x2048 : Shape := ⟨2, ![1, 2048]⟩
abbrev S256x2048 : Shape := ⟨2, ![256, 2048]⟩
abbrev S_ : Shape := ⟨0, ![]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S64x2048 : Shape := ⟨2, ![64, 2048]⟩

abbrev nBuf : Space → Nat
  | .hbm => 42
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S256, .i32⟩
  | .hbm, ⟨7, _⟩ => ⟨S256x1, .i32⟩
  | .hbm, ⟨8, _⟩ => ⟨S2048, .i32⟩
  | .hbm, ⟨9, _⟩ => ⟨S1x2048, .i32⟩
  | .hbm, ⟨10, _⟩ => ⟨S256x2048, .i32⟩
  | .hbm, ⟨11, _⟩ => ⟨S256x2048, .i32⟩
  | .hbm, ⟨12, _⟩ => ⟨S256x2048, .i32⟩
  | .hbm, ⟨13, _⟩ => ⟨S256x2048, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S256x2048, .i32⟩
  | .hbm, ⟨21, _⟩ => ⟨S256x2048, .i32⟩
  | .hbm, ⟨22, _⟩ => ⟨S_, .i32⟩
  | .hbm, ⟨23, _⟩ => ⟨S256x2048, .i32⟩
  | .hbm, ⟨24, _⟩ => ⟨S256x2048, .i1⟩
  | .hbm, ⟨25, _⟩ => ⟨S_, .i32⟩
  | .hbm, ⟨26, _⟩ => ⟨S256x2048, .i32⟩
  | .hbm, ⟨27, _⟩ => ⟨S256x2048, .i1⟩
  | .hbm, ⟨28, _⟩ => ⟨S_, .i32⟩
  | .hbm, ⟨29, _⟩ => ⟨S_, .i1⟩
  | .hbm, ⟨30, _⟩ => ⟨S256x2048, .i1⟩
  | .hbm, ⟨31, _⟩ => ⟨S256x2048, .i1⟩
  | .hbm, ⟨32, _⟩ => ⟨S256x2048, .i1⟩
  | .hbm, ⟨33, _⟩ => ⟨S256x2048, .i32⟩
  | .hbm, ⟨34, _⟩ => ⟨S256x2048, .i32⟩
  | .hbm, ⟨35, _⟩ => ⟨S256x2048, .i32⟩
  | .hbm, ⟨36, _⟩ => ⟨S_, .i32⟩
  | .hbm, ⟨37, _⟩ => ⟨S256x2048, .i32⟩
  | .hbm, ⟨38, _⟩ => ⟨S256x2048, .i1⟩
  | .hbm, ⟨39, _⟩ => ⟨S256x2048, .f32⟩
  | .hbm, ⟨40, _⟩ => ⟨S32x2048x64, .f32⟩
  | .hbm, ⟨41, _⟩ => ⟨S2x16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S256x2048, .f32⟩
  | .local _ .vmem, ⟨7, _⟩ => ⟨S1x256x64, .f32⟩
  | .local _ .vmem, ⟨8, _⟩ => ⟨S1x256x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  bcast_S256_S256x1_0 : S256.BroadcastsInDim S256x1 (![0] : Fin 1 → Fin S256x1.rank)
  bcast_S2048_S1x2048_1 : S2048.BroadcastsInDim S1x2048 (![1] : Fin 1 → Fin S1x2048.rank)
  bcast_S256x1_S256x2048_0_1 : S256x1.BroadcastsInDim S256x2048 (![0, 1] : Fin 2 → Fin S256x2048.rank)
  bcast_S1x2048_S256x2048_0_1 : S1x2048.BroadcastsInDim S256x2048 (![0, 1] : Fin 2 → Fin S256x2048.rank)
  bcast_S_S256x2048 : S_.BroadcastsInDim S256x2048 (![] : Fin 0 → Fin S256x2048.rank)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  shapeCasts_S32x2048x64_S2x16x2048x64 : S32x2048x64.ShapeCasts S2x16x2048x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x2048.size a
  hwx0_3 : ∀ i : grid0.Coords, EltTy.bits .f32 = 32 ∨ (Rect.block (s := S256x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 60
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2048, .i32⟩
  | .hbm, ⟨9, _⟩ => ⟨S2048x1, .i32⟩
  | .hbm, ⟨10, _⟩ => ⟨S2048, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S_, .i32⟩
  | .hbm, ⟨31, _⟩ => ⟨S_, .i1⟩
  | .hbm, ⟨32, _⟩ => ⟨S2048x2048, .i1⟩
  | .hbm, ⟨33, _⟩ => ⟨S2048x2048, .i1⟩
  | .hbm, ⟨34, _⟩ => ⟨S2048x2048, .i1⟩
  | .hbm, ⟨35, _⟩ => ⟨S2048x2048, .i32⟩
  | .hbm, ⟨36, _⟩ => ⟨S2048x2048, .i32⟩
  | .hbm, ⟨37, _⟩ => ⟨S2048x2048, .i32⟩
  | .hbm, ⟨38, _⟩ => ⟨S_, .i32⟩
  | .hbm, ⟨39, _⟩ => ⟨S2048x2048, .i32⟩
  | .hbm, ⟨40, _⟩ => ⟨S2048x2048, .i1⟩
  | .hbm, ⟨41, _⟩ => ⟨S2048x2048, .f32⟩
  | .hbm, ⟨42, _⟩ => ⟨S1x1x2048x2048, .f32⟩
  | .hbm, ⟨43, _⟩ => ⟨S2x16x2048x2048, .f32⟩
  | .hbm, ⟨44, _⟩ => ⟨S2x16x2048x2048, .f32⟩
  | .hbm, ⟨45, _⟩ => ⟨S_, .f32⟩
  | .hbm, ⟨46, _⟩ => ⟨S2x16x2048, .f32⟩
  | .hbm, ⟨47, _⟩ => ⟨S_, .f32⟩
  | .hbm, ⟨48, _⟩ => ⟨S2x16x2048, .f32⟩
  | .hbm, ⟨49, _⟩ => ⟨S2x16x2048, .f32⟩
  | .hbm, ⟨50, _⟩ => ⟨S2x16x2048x1, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S_, .f32⟩
  | .hbm, ⟨55, _⟩ => ⟨S2x16x2048, .f32⟩
  | .hbm, ⟨56, _⟩ => ⟨S2x16x2048x1, .f32⟩
  | .hbm, ⟨57, _⟩ => ⟨S2x16x2048x2048, .f32⟩
  | .hbm, ⟨58, _⟩ => ⟨S2x16x2048x2048, .f32⟩
  | .hbm, ⟨59, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v12 : Ref sig .tc := ⟨.hbm, 37, rfl⟩
abbrev main_c_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Dilated attention as one function of the three argument arrays, index by index over the extended reals.

  For a query row `i` and a key row `j` of one head the score is the dot product of the two rows over the 64 features,
  divided by the square root of 64, and multiplied by the parity indicator of `i + j` (one when `i` and `j` have the same
  parity, zero otherwise: the dilation-two mask, multiplicative). A row of 2048 scores is turned into weights by the
  softmax written with the row's maximum subtracted, and the result at feature `d` is the weighted sum of the value rows
  at `d`.
-/
import Idealize.ShloMosaic.PureOps.Ideal
import Idealize.ShloMosaic.PureOps.Ideal.Laws
import Idealize.ShloMosaic.Lib.ValueIdx

noncomputable section

namespace Cert.DilatedAttention

open Idealize.ShloMosaic Idealize.ShloMosaic.ValueIdx

/-- The shape of the three arguments and of the result: batch 2, heads 16, rows 2048, features 64. -/
abbrev SArg : Shape := ⟨4, ![2, 16, 2048, 64]⟩

/-- One where `i` and `j` have the same parity, zero where they differ. -/
def par (i j : ℕ) : EReal := if (i + j) % 2 = 0 then 1 else 0

/-- The largest of a row's 2048 entries, from the bottom element. -/
def rowMax (s : Fin 2048 → EReal) : EReal := (Finset.univ : Finset (Fin 2048)).fold max ⊥ s

/-- The softmax weights of the row `s` (its maximum subtracted before the exponential) applied to the column `w`. -/
def attend (s w : Fin 2048 → EReal) : EReal :=
  ∑ j : Fin 2048, Ideal.div (Ideal.exp (s j - rowMax s)) (∑ j' : Fin 2048, Ideal.exp (s j' - rowMax s)) * w j

/-- The scaled score of a query row against a key row: their dot product over the square root of 64. -/
def score (q k : Fin 64 → EReal) : EReal :=
  Ideal.div (∑ e : Fin 64, q e * k e) (Ideal.sqrt (Ideal.ofBits .f32 0x42800000#32))

/-- The same with the scale one eighth folded into the query row before the product. -/
def scoreFolded (q k : Fin 64 → EReal) : EReal :=
  ∑ e : Fin 64, (q e * Ideal.ofBits .f32 0x3E000000#32) * k e

/-- The result array: at batch `b`, head `h`, row `i`, feature `d`. -/
def G (q k v : SArg.Idx → EReal) : SArg.Idx → EReal := fun x =>
  attend (fun j => score (fun e => q (ix4 (x 0) (x 1) (x 2) e)) (fun e => k (ix4 (x 0) (x 1) j e)) * par (x 2).val j.val)
    (fun j => v (ix4 (x 0) (x 1) j (x 3)))

end Cert.DilatedAttention

end
-- ==== Proof.KernelPayload.lean ====
/-
  One grid point of the attention kernel, read at an index.

  The body takes a block of 256 query rows, the head's 2048 key rows and 2048 value rows, and the 256 × 2048 mask tile.
  At local row `r` and feature `d` it stores the softmax-weighted sum of the value rows at `d`, the weights those of the
  row of scores "query row `r` scaled by one eighth, dotted with key row `j`, times the mask at `(r, j)`" — the function
  `attend` of the specification applied to that row. The steps: the two matrix products are sums over their one contracted
  axis, the row maximum and the row sum are a fold and a sum over the key positions, the casts between float formats are
  the identity on the extended reals, and the re-laid pieces (a leading unit axis dropped or added, a transpose, a column
  kept after a reduction and spread back over the row) each read one entry of their operand.
-/
import proofs.«177172_j31129922962203_2_alg».proof.Proof.Gen.KernelIdeal
import proofs.«177172_j31129922962203_2_alg».proof.Proof.Gen.KernelIdeal.Skeleton
import proofs.«177172_j31129922962203_2_alg».proof.Proof.Spec
import Idealize.ShloMosaic.Lib.Pipeline.Value
import Idealize.ShloMosaic.Lib.ValueLayout
import Idealize.ShloMosaic.PureOps.Ideal.Laws

noncomputable section

namespace Cert.DilatedAttention.Block

open Idealize.ShloMosaic Idealize.ShloMosaic.ValueIdx Cert.KernelIdeal
open Cert.KernelIdeal.Facts₀ Cert.DilatedAttention

/-- The product of a block of query rows with the transposed key rows, contracted over the 64 features. -/
abbrev DQK := dot_S256x64_S64x2048_S256x2048_1_0_0_1_n_n
/-- The product of the weights with the value rows, contracted over the 2048 key positions. -/
abbrev DPV := dot_S256x2048_S2048x64_S256x64_1_0_0_1_n_n

/-- A product into the zero accumulator, contracted over the 64 features, at row `r` and column `c`. -/
theorem qk_apply (a : FVec Ideal S256x64 .bf16) (b : FVec Ideal S64x2048 .bf16) (r : Fin 256) (c : Fin 2048) :
    matmul DQK none a b (constant S256x2048 .f32 0x00000000#32) (ix2 r c) = ∑ e : Fin 64, a (ix2 r e) * b (ix2 e c) := by
  refine (Ideal.matmul_constant_zero_apply DQK none a b (ix2 r c)).trans ?_
  refine ((contrEquiv1 DQK 64 rfl rfl).symm.sum_comp _).symm.trans ?_
  refine Finset.sum_congr rfl fun e _ => ?_
  have h1 : DQK.lhsIdx (ix2 r c) ((contrEquiv1 DQK 64 rfl rfl).symm e) = ix2 r e := by
    funext a; apply Fin.ext
    match a with
    | ⟨0, _⟩ => rfl
    | ⟨1, _⟩ => exact contrEquiv1_symm_val DQK 64 rfl rfl e
  have h2 : DQK.rhsIdx (ix2 r c) ((contrEquiv1 DQK 64 rfl rfl).symm e) = ix2 e c := by
    funext a; apply Fin.ext
    match a with
    | ⟨0, _⟩ => exact contrEquiv1_symm_val DQK 64 rfl rfl e
    | ⟨1, _⟩ => rfl
  rw [h1, h2]

/-- A product into the zero accumulator, contracted over the 2048 key positions, at row `r` and feature `d`. -/
theorem pv_apply (a : FVec Ideal S256x2048 .bf16) (b : FVec Ideal S2048x64 .bf16) (r : Fin 256) (d : Fin 64) :
    matmul DPV none a b (constant S256x64 .f32 0x00000000#32) (ix2 r d) = ∑ j : Fin 2048, a (ix2 r j) * b (ix2 j d) := by
  refine (Ideal.matmul_constant_zero_apply DPV none a b (ix2 r d)).trans ?_
  refine ((contrEquiv1 DPV 2048 rfl rfl).symm.sum_comp _).symm.trans ?_
  refine Finset.sum_congr rfl fun j _ => ?_
  have h1 : DPV.lhsIdx (ix2 r d) ((contrEquiv1 DPV 2048 rfl rfl).symm j) = ix2 r j := by
    funext a; apply Fin.ext
    match a with
    | ⟨0, _⟩ => rfl
    | ⟨1, _⟩ => exact contrEquiv1_symm_val DPV 2048 rfl rfl j
  have h2 : DPV.rhsIdx (ix2 r d) ((contrEquiv1 DPV 2048 rfl rfl).symm j) = ix2 j d := by
    funext a; apply Fin.ext
    match a with
    | ⟨0, _⟩ => exact contrEquiv1_symm_val DPV 2048 rfl rfl j
    | ⟨1, _⟩ => rfl
  rw [h1, h2]

/-- A column of 256 entries kept as a 256 × 1 array and spread over the 2048 columns reads, at `(r, j)`, entry `r`. -/
theorem column_apply (v : FVec Ideal S256 .f32) (r : Fin 256) (j : Fin 2048) :
    broadcastTo S256x2048 (shapeCast S256x1 v shapeCasts_S256_S256x1) broadcasts_S256x1_S256x2048 (ix2 r j) = v (ix1 r) := by
  refine (broadcastTo_apply _ broadcasts_S256x1_S256x2048 (ix2 r j) (ix2 r (0 : Fin 1)) fun a => ?_).trans ?_
  · match a with
    | ⟨0, _⟩ => rfl
    | ⟨1, _⟩ => rfl
  · refine shapeCast_apply v shapeCasts_S256_S256x1 _ (ix1 r) ?_
    rw [Shape.rowMajor_val_two, Shape.rowMajor_val_one]
    show r.val = r.val * 1 + 0
    omega

/-- The scores of a block: the query rows scaled by one eighth against the key rows, times the mask tile. -/
def scores (x0 : Vec Ideal S1x256x64 .f32) (x1 : Vec Ideal S1x2048x64 .f32) (x3 : Vec Ideal S256x2048 .f32) : FVec Ideal S256x2048 .f32 :=
  mulf (matmul DQK none
      (truncf .bf16 (mulf (shapeCast S256x64 x0 shapeCasts_S1x256x64_S256x64) (broadcast S256x64 (Scalar.ofBits .f32 0x3E000000#32))) bitsLt_bf16_f32)
      (transpose S64x2048 [1, 0] (truncf .bf16 (shapeCast S2048x64 x1 shapeCasts_S1x2048x64_S2048x64) bitsLt_bf16_f32) transposes_S2048x64_p1_0_S64x2048)
      (constant S256x2048 .f32 0x00000000#32))
    (shapeCast S256x2048 x3 shapeCasts_S256x2048_S256x2048)

/-- Each score less its row's maximum, exponentiated. -/
def expd (s : FVec Ideal S256x2048 .f32) : FVec Ideal S256x2048 .f32 :=
  exp (subf s (broadcastTo S256x2048 (shapeCast S256x1 (multiReduction .maximumf [1] S256 s 0xFF800000#32 reduces_S256x2048_S256 (.inl rfl) rfl) shapeCasts_S256_S256x1) broadcasts_S256x1_S256x2048))

/-- Each entry over its row's sum. -/
def weights (e : FVec Ideal S256x2048 .f32) : FVec Ideal S256x2048 .f32 :=
  divf e (broadcastTo S256x2048 (shapeCast S256x1 (multiReduction .add [1] S256 e 0x00000000#32 reduces_S256x2048_S256 (.inl rfl) rfl) shapeCasts_S256_S256x1) broadcasts_S256x1_S256x2048)

/-- The weights against the value rows, stored with a leading unit axis. -/
def stored (p : FVec Ideal S256x2048 .f32) (x2 : Vec Ideal S1x2048x64 .f32) : FVec Ideal S1x256x64 .f32 :=
  shapeCast S1x256x64 (matmul DPV none (truncf .bf16 p bitsLt_bf16_f32)
      (truncf .bf16 (shapeCast S2048x64 x2 shapeCasts_S1x2048x64_S2048x64) bitsLt_bf16_f32) (constant S256x64 .f32 0x00000000#32))
    shapeCasts_S256x64_S1x256x64

/-- The body's stored value is these four steps composed. -/
theorem pay_eq (x0 : Vec Ideal S1x256x64 .f32) (x1 x2 : Vec Ideal S1x2048x64 .f32) (x3 : Vec Ideal S256x2048 .f32) :
    Cert.KernelIdeal.Gen.k0_pay1 x0 x1 x2 x3 = stored (weights (expd (scores x0 x1 x3))) x2 := rfl

/-- A score at local row `r` and key position `j`. -/
theorem scores_apply (x0 : Vec Ideal S1x256x64 .f32) (x1 : Vec Ideal S1x2048x64 .f32) (x3 : Vec Ideal S256x2048 .f32) (r : Fin 256) (j : Fin 2048) :
    scores x0 x1 x3 (ix2 r j)
      = scoreFolded (fun e => x0 (ix3 (0 : Fin 1) r e)) (fun e => x1 (ix3 (0 : Fin 1) j e)) * x3 (ix2 r j) := by
  unfold scores scoreFolded
  rw [mulf_apply, qk_apply, shapeCast_self]
  refine congrArg (· * x3 (ix2 r j)) (Finset.sum_congr rfl fun e _ => ?_)
  rw [truncf_apply, mulf_apply, broadcast_apply, shapeCast_1ab_ab_apply, transpose_ix2_apply, truncf_apply, shapeCast_1ab_ab_apply]
  rfl

/-- Row `r` with the key position `k` put back on the reduced axis is the index `(r, k)`. -/
theorem lift_row (r : Fin 256) (k : Fin 2048) :
    (reduces_S256x2048_S256 : S256x2048.Reduces [1] S256).lift (ix1 r) k = ix2 r k := by
  funext a; apply Fin.ext
  match a with
  | ⟨0, _⟩ => rfl
  | ⟨1, _⟩ => rfl

/-- The least extended real is the word of minus infinity. -/
theorem ofBits_neg_inf : FloatOps.ofBits (F := Ideal) .f32 0xFF800000#32 = (⊥ : EReal) := by
  simp [Ideal.ofBits, Ideal.ieee]

/-- The row maximum at row `r`. -/
theorem rowmax_apply (s : FVec Ideal S256x2048 .f32) (r : Fin 256) :
    multiReduction .maximumf [1] S256 s 0xFF800000#32 reduces_S256x2048_S256 (.inl rfl) rfl (ix1 r)
      = rowMax (fun j => s (ix2 r j)) := by
  refine (Ideal.multiReduction_maximumf_single s 0xFF800000#32 reduces_S256x2048_S256 (.inl rfl) rfl (ix1 r)).trans ?_
  rw [ofBits_neg_inf]
  unfold rowMax
  exact congrArg (fun f : Fin 2048 → EReal => Finset.fold max ⊥ f Finset.univ) (funext fun k => congrArg s (lift_row r k))

/-- The row sum at row `r`. -/
theorem rowsum_apply (e : FVec Ideal S256x2048 .f32) (r : Fin 256) :
    multiReduction .add [1] S256 e 0x00000000#32 reduces_S256x2048_S256 (.inl rfl) rfl (ix1 r)
      = ∑ j : Fin 2048, e (ix2 r j) := by
  refine (Ideal.multiReduction_add_single e 0x00000000#32 reduces_S256x2048_S256 (.inl rfl) rfl (ix1 r)).trans ?_
  exact Finset.sum_congr rfl fun k _ => congrArg e (lift_row r k)

/-- What one grid point stores at local row `r` and feature `d`. -/
theorem pay_apply (x0 : Vec Ideal S1x256x64 .f32) (x1 x2 : Vec Ideal S1x2048x64 .f32) (x3 : Vec Ideal S256x2048 .f32)
    (u : Fin 1) (r : Fin 256) (d : Fin 64) :
    Cert.KernelIdeal.Gen.k0_pay1 x0 x1 x2 x3 (ix3 u r d)
      = attend (fun j => scoreFolded (fun e => x0 (ix3 (0 : Fin 1) r e)) (fun e => x1 (ix3 (0 : Fin 1) j e)) * x3 (ix2 r j))
          (fun j => x2 (ix3 (0 : Fin 1) j d)) := by
  rw [pay_eq]
  unfold stored attend
  rw [shapeCast_ab_1ab_apply, pv_apply]
  refine Finset.sum_congr rfl fun j _ => ?_
  rw [truncf_apply, truncf_apply, shapeCast_1ab_ab_apply]
  refine congrArg (· * x2 (ix3 (0 : Fin 1) j d)) ?_
  unfold weights
  rw [divf_apply, column_apply, rowsum_apply]
  have hE : ∀ j' : Fin 2048, expd (scores x0 x1 x3) (ix2 r j')
      = Ideal.exp ((scoreFolded (fun e => x0 (ix3 (0 : Fin 1) r e)) (fun e => x1 (ix3 (0 : Fin 1) j' e)) * x3 (ix2 r j'))
          - rowMax (fun j => scoreFolded (fun e => x0 (ix3 (0 : Fin 1) r e)) (fun e => x1 (ix3 (0 : Fin 1) j e)) * x3 (ix2 r j))) := by
    intro j'
    unfold expd
    show Ideal.exp (_ - _) = _
    rw [column_apply, rowmax_apply, scores_apply]
    refine congrArg (fun z => Ideal.exp (_ - rowMax z)) (funext fun j => scores_apply x0 x1 x3 r j)
  rw [hE j]
  exact congrArg (Ideal.div _) (Finset.sum_congr rfl fun j' _ => hE j')

end Cert.DilatedAttention.Block

end
-- ==== Proof.KernelBlocks.lean ====
/-
  From the grid's blocks to the whole array.

  The kernel's grid is 32 heads × 8 tiles of 256 query rows. Point `(h, t)` reads query rows `256 t … 256 t + 255` of
  head `h`, all key and value rows of head `h`, and the whole mask tile, and writes back rows `256 t … 256 t + 255` of
  head `h` of the result. So the result array, index by index, is one function of the four arrays the region finds: at
  head `h`, row `i`, feature `d` the softmax-weighted sum of the value rows, the scores those of query row `i` against
  every key row times the mask tile at local row `i mod 256`. Every index lies in the block of the point
  `(h, i / 256)`, so the blocks cover the array.
-/
import proofs.«177172_j31129922962203_2_alg».proof.Proof.Gen.KernelIdeal.Frame
import proofs.«177172_j31129922962203_2_alg».proof.Proof.KernelPayload
import Idealize.ShloMosaic.Lib.Pipeline.Value

noncomputable section

namespace Cert.DilatedAttention.Kernel

open Idealize.ShloMosaic Idealize.ShloMosaic.ValueIdx Idealize.ShloMosaic.TcCoe Idealize.SL.Sem
open Idealize.ShloMosaic.Pipeline (Dat)
open Cert.KernelIdeal Cert.KernelIdeal.Gen Cert.DilatedAttention

variable (m : (ℓ : Loc nD τ sig) → Buf (Elt Ideal) ℓ) (ρ : Dev nD → PrngReg)

/-- The result over the 32 heads: `A0`, `A1`, `A2` the query, key and value rows by head, `M` the mask tile. -/
def GK (A0 A1 A2 : S32x2048x64.Idx → EReal) (M : S256x2048.Idx → EReal) : S32x2048x64.Idx → EReal := fun i =>
  attend (fun j => scoreFolded (fun e => A0 (ix3 (i 0) (i 1) e)) (fun e => A1 (ix3 (i 0) j e))
      * M (ix2 (⟨(i 1).val % 256, Nat.mod_lt _ (by decide)⟩ : Fin 256) j))
    (fun j => A2 (ix3 (i 0) j (i 2)))

theorem hz3 : (![0, 0, 0] : Fin 3 → Nat) = fun _ => 0 := funext fun a => by fin_cases a <;> rfl
theorem hz2 : (![0, 0] : Fin 2 → Nat) = fun _ => 0 := funext fun a => by fin_cases a <;> rfl

/-- One point's stored block against the whole-array function: if the four loaded blocks are the rows of the arrays that
    the point `(h, t)` reads, the stored value at `y` is `GK` at the array index under `y`. -/
theorem point_eq (A0 A1 A2 : S32x2048x64.Idx → EReal) (M : S256x2048.Idx → EReal)
    (x0 : Vec Ideal S1x256x64 .f32) (x1 x2 : Vec Ideal S1x2048x64 .f32) (x3 : Vec Ideal S256x2048 .f32)
    (h t : ℕ) (y : S1x256x64.Idx) (i : S32x2048x64.Idx)
    (hi0 : (i 0).val = h) (hi1 : (i 1).val = t * 256 + (y 1).val) (hi2 : (i 2).val = (y 2).val)
    (h0 : ∀ (r : Fin 256) (e : Fin 64) (k : S32x2048x64.Idx), (k 0).val = h → (k 1).val = t * 256 + r.val → (k 2).val = e.val →
      x0 (ix3 (0 : Fin 1) r e) = A0 k)
    (h1 : ∀ (j : Fin 2048) (e : Fin 64) (k : S32x2048x64.Idx), (k 0).val = h → (k 1).val = j.val → (k 2).val = e.val →
      x1 (ix3 (0 : Fin 1) j e) = A1 k)
    (h2 : ∀ (j : Fin 2048) (e : Fin 64) (k : S32x2048x64.Idx), (k 0).val = h → (k 1).val = j.val → (k 2).val = e.val →
      x2 (ix3 (0 : Fin 1) j e) = A2 k)
    (h3 : ∀ (r : Fin 256) (j : Fin 2048), x3 (ix2 r j) = M (ix2 r j)) :
    Cert.KernelIdeal.Gen.k0_pay1 x0 x1 x2 x3 y = GK A0 A1 A2 M i := by
  obtain ⟨u, r, d, rfl⟩ : ∃ (u : Fin 1) (r : Fin 256) (d : Fin 64), y = ix3 u r d := ⟨y 0, y 1, y 2, eq_ix3 y⟩
  rw [Block.pay_apply]
  unfold GK
  have hr : (⟨(i 1).val % 256, Nat.mod_lt _ (by decide)⟩ : Fin 256) = r := by
    apply Fin.ext
    show (i 1).val % 256 = r.val
    have : ((ix3 u r d : S1x256x64.Idx) 1).val = r.val := rfl
    have hr' := r.isLt
    omega
  rw [hr]
  refine congrArg₂ attend (funext fun j => ?_) (funext fun j => ?_)
  · rw [h3]
    refine congrArg (· * M (ix2 r j)) (congrArg₂ scoreFolded (funext fun e => ?_) (funext fun e => ?_))
    · exact h0 r e _ hi0 hi1 rfl
    · exact h1 j e _ hi0 rfl rfl
  · exact h2 j d _ hi0 rfl hi2

/-- The printed index maps, decided over the 256 grid points: the query and result windows move together over heads and
    row tiles, the key and value windows follow the head alone, the mask window stays. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 3) < 32 ∧ win0_4.index t (1 : Fin 3) < 8 :=
  (by decide +kernel : ∀ t : Fin grid0.N, _)

/-- Every head and row tile is some point's. -/
theorem idx_onto : ∀ (q0 : Fin 32) (q1 : Fin 8), ∃ t : Fin cfg0.N, win0_4.index t = ![q0.val, q1.val, 0] :=
  (by decide +kernel : ∀ (q0 : Fin 32) (q1 : Fin 8), ∃ t : Fin grid0.N, win0_4.index t = ![q0.val, q1.val, 0])

/-- The query window's block at a point: rows `256 t … 256 t + 255` of head `h`, where `(h, t)` is the result block's index. -/
theorem iblk0_apply (c : Dev nD) (t : Fin cfg0.N) (r : Fin 256) (e : Fin 64) (k : S32x2048x64.Idx)
    (hk0 : (k 0).val = win0_4.index t (0 : Fin 3)) (hk1 : (k 1).val = win0_4.index t (1 : Fin 3) * 256 + r.val) (hk2 : (k 2).val = e.val) :
    (iblk m c 0 t : Vec Ideal S1x256x64 .f32) (ix3 (0 : Fin 1) r e) = V m c main_v0 k := by
  obtain ⟨e0, e1, e2, -⟩ := idx_facts t
  unfold iblk
  rw [View.read_apply]
  show V m c main_v0 _ = V m c main_v0 k
  refine congrArg (V m c main_v0) (funext fun a => Fin.ext ?_)
  match a with
  | ⟨0, _⟩ => show win0_0.index t (0 : Fin 3) * 1 + 1 * 0 = (k 0).val; omega
  | ⟨1, _⟩ => show win0_0.index t (1 : Fin 3) * 256 + 1 * r.val = (k 1).val; omega
  | ⟨2, _⟩ => show win0_0.index t (2 : Fin 3) * 64 + 1 * e.val = (k 2).val; omega

/-- The key window's block at a point: all rows of head `h`. -/
theorem iblk1_apply (c : Dev nD) (t : Fin cfg0.N) (j : Fin 2048) (e : Fin 64) (k : S32x2048x64.Idx)
    (hk0 : (k 0).val = win0_4.index t (0 : Fin 3)) (hk1 : (k 1).val = j.val) (hk2 : (k 2).val = e.val) :
    (iblk m c 1 t : Vec Ideal S1x2048x64 .f32) (ix3 (0 : Fin 1) j e) = V m c main_v1 k := by
  obtain ⟨-, -, -, -, e4, e5, e6, -⟩ := idx_facts t
  unfold iblk
  rw [View.read_apply]
  show V m c main_v1 _ = V m c main_v1 k
  refine congrArg (V m c main_v1) (funext fun a => Fin.ext ?_)
  match a with
  | ⟨0, _⟩ => show win0_1.index t (0 : Fin 3) * 1 + 1 * 0 = (k 0).val; omega
  | ⟨1, _⟩ => show win0_1.index t (1 : Fin 3) * 2048 + 1 * j.val = (k 1).val; omega
  | ⟨2, _⟩ => show win0_1.index t (2 : Fin 3) * 64 + 1 * e.val = (k 2).val; omega

/-- The value window's block at a point: all rows of head `h`. -/
theorem iblk2_apply (c : Dev nD) (t : Fin cfg0.N) (j : Fin 2048) (e : Fin 64) (k : S32x2048x64.Idx)
    (hk0 : (k 0).val = win0_4.index t (0 : Fin 3)) (hk1 : (k 1).val = j.val) (hk2 : (k 2).val = e.val) :
    (iblk m c 2 t : Vec Ideal S1x2048x64 .f32) (ix3 (0 : Fin 1) j e) = V m c main_v2 k := by
  obtain ⟨-, -, -, -, -, -, -, e7, e8, e9, -⟩ := idx_facts t
  unfold iblk
  rw [View.read_apply]
  show V m c main_v2 _ = V m c main_v2 k
  refine congrArg (V m c main_v2) (funext fun a => Fin.ext ?_)
  match a with
  | ⟨0, _⟩ => show win0_2.index t (0 : Fin 3) * 1 + 1 * 0 = (k 0).val; omega
  | ⟨1, _⟩ => show win0_2.index t (1 : Fin 3) * 2048 + 1 * j.val = (k 1).val; omega
  | ⟨2, _⟩ => show win0_2.index t (2 : Fin 3) * 64 + 1 * e.val = (k 2).val; omega

/-- The mask window's block at every point is the whole mask tile. -/
theorem iblk3_apply (c : Dev nD) (t : Fin cfg0.N) (r : Fin 256) (j : Fin 2048) :
    (iblk m c 3 t : Vec Ideal S256x2048 .f32) (ix2 r j) = V m c main_v14 (ix2 r j) := by
  obtain ⟨-, -, -, -, -, -, -, -, -, -, e10, e11, -⟩ := idx_facts t
  unfold iblk
  rw [View.read_apply]
  show V m c main_v14 _ = V m c main_v14 (ix2 r j)
  refine congrArg (V m c main_v14) (funext fun a => Fin.ext ?_)
  match a with
  | ⟨0, _⟩ => show win0_3.index t (0 : Fin 2) * 256 + 1 * r.val = r.val; omega
  | ⟨1, _⟩ => show win0_3.index t (1 : Fin 2) * 2048 + 1 * j.val = j.val; omega

/-- What a point writes back is its block of `GK` of the four arrays as the region finds them. -/
theorem flushed_eq (c : Dev nD) (t : Fin cfg0.N) :
    (dats m 0 c).flushed 4 t
      = ((cfg0.win 4).blk t).view.read (Elt Ideal) (GK (V m c main_v0) (V m c main_v1) (V m c main_v2) (V m c main_v14)) := by
  show (cfg0.win 4).cut (grid0.coords t) ((dats m 0 c).after 4 t) = _
  rw [after0_4]
  unfold out0_4
  rw [View.canon_unit_zero hz3]
  simp only [View.ld_unit_zero (S := S1x256x64) hz3, View.ld_unit_zero (S := S1x2048x64) hz3, View.ld_unit_zero (S := S256x2048) hz2]
  funext y
  show Cert.KernelIdeal.Gen.k0_pay1 (iblk m c 0 t) (iblk m c 1 t) (iblk m c 2 t) (iblk m c 3 t) y
    = GK (V m c main_v0) (V m c main_v1) (V m c main_v2) (V m c main_v14) (((cfg0.win 4).blk t).view.emb y)
  obtain ⟨-, -, -, e3, -⟩ := idx_facts t
  refine point_eq (V m c main_v0) (V m c main_v1) (V m c main_v2) (V m c main_v14)
    (iblk m c 0 t) (iblk m c 1 t) (iblk m c 2 t) (iblk m c 3 t)
    (win0_4.index t (0 : Fin 3)) (win0_4.index t (1 : Fin 3)) y (((cfg0.win 4).blk t).view.emb y) ?_ ?_ ?_
    (fun r e k hk0 hk1 hk2 => iblk0_apply m c t r e k hk0 hk1 hk2)
    (fun j e k hk0 hk1 hk2 => iblk1_apply m c t j e k hk0 hk1 hk2)
    (fun j e k hk0 hk1 hk2 => iblk2_apply m c t j e k hk0 hk1 hk2)
    (fun r j => iblk3_apply m c t r j)
  · show win0_4.index t (0 : Fin 3) * 1 + 1 * (y 0).val = win0_4.index t (0 : Fin 3)
    have hy : (y 0).val < 1 := (y 0).isLt
    omega
  · show win0_4.index t (1 : Fin 3) * 256 + 1 * (y 1).val = win0_4.index t (1 : Fin 3) * 256 + (y 1).val
    omega
  · show win0_4.index t (2 : Fin 3) * 64 + 1 * (y 2).val = (y 2).val
    omega

/-- An index of the result array is in a point's block iff each coordinate is in the block's range on its axis. -/
theorem mem_blk (t : Fin cfg0.N) (i : S32x2048x64.Idx) :
    i ∈ ((cfg0.win 4).blk t).view.set ↔ ∀ a : Fin 3, win0_4.index t a * S1x256x64.size a ≤ (i a).val
      ∧ (i a).val < win0_4.index t a * S1x256x64.size a + S1x256x64.size a := by
  show i ∈ ((View.whole main_v15).slice (win0_4.rect t)).set ↔ _
  rw [View.set_slice_whole, Rect.mem_set_unit]
  exact Iff.rfl

/-- Every index of the result array is in the block of the point at its head and its row's tile. -/
theorem cover (i : S32x2048x64.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 64 ≤ (i 2).val ∧ (i 2).val < win0_4.index t (2 : Fin 3) * 64 + 64
    omega

/-- The result array after the region: `GK` of the four arrays the region finds. -/
theorem final (c : Dev nD) :
    (dats m 0 c).arrAt 4 cfg0.N = GK (V m c main_v0) (V m c main_v1) (V m c main_v2) (V m c main_v14) :=
  (dats m 0 c).arrAt_eq_of_cover 4 _ (fun t _ => flushed_eq m c t) cover

end Cert.DilatedAttention.Kernel

end
-- ==== Proof.MaskBits.lean ====
/-
  The dilation-two mask as the integer operations compute it, at one pair of positions.

  From the difference `x` of two positions as 32-bit words: the absolute value, the remainder by two with the sign of
  the divisor (the truncated remainder, plus the divisor where the two signs differ and the remainder is not zero), and
  the comparison of that remainder with zero. For positions below 2048 the result is one exactly when the two positions
  have the same parity.
-/
import Idealize.ShloMosaic.PureOps.Ideal
import Idealize.ShloMosaic.PureOps.Vector

namespace Cert.DilatedAttention

open Idealize.ShloMosaic

/-- The divisor as the remainder helper prepares it: two, or one if it had been zero. -/
def divisor : BitVec 32 := Scalar.select (IntOp.cmpi .eq (2#32) (0#32)) (1#32) (2#32)

/-- One exactly when the remainder of `|x|` by two, taken with the divisor's sign, is zero. -/
def parityBit (x : BitVec 32) : BitVec 1 :=
  IntOp.cmpi .eq
    (Scalar.select
      (IntOp.andi
        (IntOp.cmpi .ne (IntOp.cmpi .slt (IntOp.remsi .host (IntOp.absi x) divisor) (0#32)) (IntOp.cmpi .slt divisor (0#32)))
        (IntOp.cmpi .ne (IntOp.remsi .host (IntOp.absi x) divisor) (0#32)))
      (IntOp.addi (IntOp.remsi .host (IntOp.absi x) divisor) divisor)
      (IntOp.remsi .host (IntOp.absi x) divisor))
    (0#32)

/-- The prepared divisor is two. -/
theorem divisor_eq : divisor = 2#32 := by decide

/-- The absolute value of the difference of two positions below 2048 is the word of their distance: the difference
    is the word of `a - b` with the sign bit clear when `b ≤ a`, and the negation of the word of `b - a` with the sign
    bit set otherwise. -/
theorem absi_sub (a b : ℕ) (ha : a < 2048) (hb : b < 2048) :
    IntOp.absi (IntOp.subi (BitVec.ofNat 32 a) (BitVec.ofNat 32 b))
      = BitVec.ofNat 32 (if b ≤ a then a - b else b - a) := by
  unfold IntOp.absi IntOp.subi
  by_cases h : b ≤ a
  · have hx : BitVec.ofNat 32 a - BitVec.ofNat 32 b = BitVec.ofNat 32 (a - b) := by
      apply BitVec.eq_of_toNat_eq
      simp only [BitVec.toNat_sub, BitVec.toNat_ofNat]
      omega
    have hm : (BitVec.ofNat 32 (a - b)).msb = false := by
      rw [BitVec.msb_eq_decide]
      simp only [BitVec.toNat_ofNat]
      simp
      omega
    rw [hx, hm, if_pos h]
    simp
  · have hx : BitVec.ofNat 32 a - BitVec.ofNat 32 b = -BitVec.ofNat 32 (b - a) := by
      apply BitVec.eq_of_toNat_eq
      simp only [BitVec.toNat_sub, BitVec.toNat_neg, BitVec.toNat_ofNat]
      omega
    have hm : (-BitVec.ofNat 32 (b - a)).msb = true := by
      rw [BitVec.msb_eq_decide]
      simp only [BitVec.toNat_neg, BitVec.toNat_ofNat]
      simp
      omega
    rw [hx, hm, if_neg h]
    simp

/-- The truncated remainder by two of a non-negative word below 2048: the divisor is neither zero nor minus one, both
    sign bits are clear, so the signed remainder is the unsigned one, the word of `n % 2`. -/
theorem remsi_two (n : ℕ) (hn : n < 2048) :
    IntOp.remsi .host (BitVec.ofNat 32 n) (2#32) = BitVec.ofNat 32 (n % 2) := by
  unfold IntOp.remsi
  have h1 : ¬ IntOp.SDivCorner (BitVec.ofNat 32 n) (2#32) := by
    unfold IntOp.SDivCorner
    rintro (h | ⟨_, h⟩)
    · exact absurd h (by decide)
    · exact absurd h (by decide)
  rw [if_neg h1]
  have hm : (BitVec.ofNat 32 n).msb = false := by
    rw [BitVec.msb_eq_decide]
    simp only [BitVec.toNat_ofNat]
    simp
    omega
  have hm2 : (2#32 : BitVec 32).msb = false := by decide
  rw [BitVec.srem_eq, hm, hm2]
  apply BitVec.eq_of_toNat_eq
  simp only [BitVec.toNat_umod, BitVec.toNat_ofNat]
  have e2 : (2 : ℕ) % 2 ^ 32 = 2 := by norm_num
  rw [e2]
  omega

/-- For two positions below 2048 the bit is one exactly when they have the same parity. -/
theorem parityBit_sub (a b : ℕ) (ha : a < 2048) (hb : b < 2048) :
    parityBit (IntOp.subi (BitVec.ofNat 32 a) (BitVec.ofNat 32 b)) = if (a + b) % 2 = 0 then 1#1 else 0#1 := by
  -- the distance is below 2048 and has the parity of the sum
  have hn : (if b ≤ a then a - b else b - a) < 2048 := by split <;> omega
  have hpar : (if b ≤ a then a - b else b - a) % 2 = (a + b) % 2 := by split <;> omega
  unfold parityBit
  rw [divisor_eq, absi_sub a b ha hb, remsi_two _ hn, hpar]
  -- the remainder is the word zero or the word one; each case is a closed computation
  rcases Nat.mod_two_eq_zero_or_one (a + b) with h | h
  · rw [h]; decide
  · rw [h]; decide

end Cert.DilatedAttention
-- ==== Proof.KernelHost.lean ====
/-
  Around the region: what the host operations before it put in the four arrays it reads, and what the one after it
  makes of the array it wrote.

  Before the region the three arguments are viewed with batch and head merged into one axis of 32, and the mask tile is
  computed: at local row `r` and key position `j` the parity bit of `r - j` (positions as 32-bit words), converted to a
  float — one where `r` and `j` have the same parity, zero elsewhere. After the region the result is viewed back with
  batch and head apart. So the program's result at batch `b`, head `h`, row `i`, feature `d` is the softmax-weighted sum
  of the value rows of that head, the scores those of query row `i` (scaled by one eighth before the product) against
  the key rows, times the parity indicator of `i mod 256` and the key position.
-/
import proofs.«177172_j31129922962203_2_alg».proof.Proof.KernelBlocks
import proofs.«177172_j31129922962203_2_alg».proof.Proof.MaskBits
import Idealize.ShloMosaic.Lib.StableHlo.Run
import Idealize.ShloMosaic.Lib.ValueLayout

noncomputable section

namespace Cert.DilatedAttention.Kernel

open Idealize.ShloMosaic Idealize.ShloMosaic.ValueIdx Idealize.ShloMosaic.TcCoe Idealize.SL.Sem Idealize.ShloMosaic.StableHlo
open Idealize.ShloMosaic.Pipeline (Dat)
open Cert.KernelIdeal Cert.KernelIdeal.Gen Cert.DilatedAttention

variable (m : (ℓ : Loc nD τ sig) → Buf (Elt Ideal) ℓ) (ρ : Dev nD → PrngReg)

/-! ## The mask tile -/

/-- The divisor as a rank-0 array: two, or one if it had been zero. -/
def twoW : IVec S_ 32 :=
  select (cmpi .eq (id (constantI S_ 32 2#32)) (constantI S_ 32 0#32)) (constantI S_ 32 1#32) (id (constantI S_ 32 2#32))

/-- The distance between local row and key position, as words. -/
def distW : IVec S256x2048 32 :=
  absi (subi
    (broadcastInDim S256x2048 ![0, 1] Gen.bcast_S256x1_S256x2048_0_1 (broadcastInDim S256x1 ![0] Gen.bcast_S256_S256x1_0 (iotaInDim S256 32 0)))
    (broadcastInDim S256x2048 ![0, 1] Gen.bcast_S1x2048_S256x2048_0_1 (broadcastInDim S1x2048 ![1] Gen.bcast_S2048_S1x2048_1 (iotaInDim S2048 32 0))))

/-- Its truncated remainder by the divisor. -/
def remW : IVec S256x2048 32 := Host.remsi distW (broadcastInDim S256x2048 ![] Gen.bcast_S_S256x2048 twoW)

/-- The mask tile: the remainder taken with the divisor's sign, compared with zero, as a float. -/
def maskTile : FVec Ideal S256x2048 .f32 :=
  uitofp .f32 (cmpi .eq
    (select
      (andi
        (cmpi .ne (cmpi .slt remW (broadcastInDim S256x2048 ![] Gen.bcast_S_S256x2048 (constantI S_ 32 0#32)))
          (broadcastInDim S256x2048 ![] Gen.bcast_S_S256x2048 (cmpi .slt twoW (constantI S_ 32 0#32))))
        (cmpi .ne remW (broadcastInDim S256x2048 ![] Gen.bcast_S_S256x2048 (constantI S_ 32 0#32))))
      (addi remW (broadcastInDim S256x2048 ![] Gen.bcast_S_S256x2048 twoW))
      remW)
    (broadcastInDim S256x2048 ![] Gen.bcast_S_S256x2048 (constantI S_ 32 0#32)))

set_option maxHeartbeats 1000000 in
/-- The region finds the mask tile in its fourth array. -/
theorem V_mask (c : Dev nD) : (V m c main_v14 : S256x2048.Idx → EReal) = maskTile := by
  dsimp only [Gen.V, Gen.V0]
  simp only [Gen.hostOps0, Gen.hostOps0_1, Gen.hostOps0_2, List.flatten_cons, List.flatten_nil, List.append_nil, List.cons_append, List.nil_append]
  after_results_simp
  rfl

/-- The mask tile at local row `r` and key position `j`: the parity indicator. -/
theorem maskTile_apply (r : Fin 256) (j : Fin 2048) : maskTile (ix2 r j) = par r.val j.val := by
  have h : maskTile (ix2 r j)
      = FloatOps.uitofp (F := Ideal) .f32 (parityBit (IntOp.subi (BitVec.ofNat 32 r.val) (BitVec.ofNat 32 j.val))) := rfl
  rw [h, parityBit_sub r.val j.val (by have := r.isLt; omega) j.isLt]
  unfold par
  split
  · show (((1#1 : BitVec 1).toNat : ℝ) : EReal) = 1
    norm_num
  · show (((0#1 : BitVec 1).toNat : ℝ) : EReal) = 0
    norm_num

/-! ## The arguments with batch and head merged -/

/-- The region finds the queries, batch and head merged, in its first array. -/
theorem V_q (c : Dev nD) : (V m c main_v0 : S32x2048x64.Idx → EReal)
    = shapeCast S32x2048x64 (m ((c : Thread nD τ).loc main_arg0)) Gen.shapeCasts_S2x16x2048x64_S32x2048x64 := by
  dsimp only [Gen.V, Gen.V0]
  simp only [Gen.hostOps0, Gen.hostOps0_1, Gen.hostOps0_2, List.flatten_cons, List.flatten_nil, List.append_nil, List.cons_append, List.nil_append]
  after_results_simp
  rfl

/-- The keys likewise in its second, -/
theorem V_k (c : Dev nD) : (V m c main_v1 : S32x2048x64.Idx → EReal)
    = shapeCast S32x2048x64 (m ((c : Thread nD τ).loc main_arg1)) Gen.shapeCasts_S2x16x2048x64_S32x2048x64 := by
  dsimp only [Gen.V, Gen.V0]
  simp only [Gen.hostOps0, Gen.hostOps0_1, Gen.hostOps0_2, List.flatten_cons, List.flatten_nil, List.append_nil, List.cons_append, List.nil_append]
  after_results_simp
  rfl

/-- and the values in its third. -/
theorem V_v (c : Dev nD) : (V m c main_v2 : S32x2048x64.Idx → EReal)
    = shapeCast S32x2048x64 (m ((c : Thread nD τ).loc main_arg2)) Gen.shapeCasts_S2x16x2048x64_S32x2048x64 := by
  dsimp only [Gen.V, Gen.V0]
  simp only [Gen.hostOps0, Gen.hostOps0_1, Gen.hostOps0_2, List.flatten_cons, List.flatten_nil, List.append_nil, List.cons_append, List.nil_append]
  after_results_simp
  rfl

/-- An array over (batch, head, row, feature) viewed over (merged head, row, feature) reads, at merged head `16 b + h`,
    the entry at `(b, h)`. -/
theorem merged_apply (X : S2x16x2048x64.Idx → EReal) (b : Fin 2) (h : Fin 16) (i : Fin 2048) (e : Fin 64) (k : S32x2048x64.Idx)
    (hk0 : (k 0).val = b.val * 16 + h.val) (hk1 : (k 1).val = i.val) (hk2 : (k 2).val = e.val) :
    shapeCast S32x2048x64 X Gen.shapeCasts_S2x16x2048x64_S32x2048x64 k = X (ix4 b h i e) := by
  refine shapeCast_apply X Gen.shapeCasts_S2x16x2048x64_S32x2048x64 k (ix4 b h i e) ?_
  rw [Shape.rowMajor_val_four, Shape.rowMajor_val_three]
  show ((b.val * 16 + h.val) * 2048 + i.val) * 64 + e.val = ((k 0).val * 2048 + (k 1).val) * 64 + (k 2).val
  rw [hk0, hk1, hk2]

/-- An array over (merged head, row, feature) viewed over (batch, head, row, feature) reads, at `(b, h)`, the entry at
    merged head `16 b + h`. -/
theorem split_apply (Y : S32x2048x64.Idx → EReal) (b : Fin 2) (h : Fin 16) (i : Fin 2048) (d : Fin 64) (k : S32x2048x64.Idx)
    (hk0 : (k 0).val = b.val * 16 + h.val) (hk1 : (k 1).val = i.val) (hk2 : (k 2).val = d.val) :
    shapeCast S2x16x2048x64 Y Gen.shapeCasts_S32x2048x64_S2x16x2048x64 (ix4 b h i d) = Y k := by
  refine shapeCast_apply Y Gen.shapeCasts_S32x2048x64_S2x16x2048x64 (ix4 b h i d) k ?_
  rw [Shape.rowMajor_val_four, Shape.rowMajor_val_three]
  show ((k 0).val * 2048 + (k 1).val) * 64 + (k 2).val = ((b.val * 16 + h.val) * 2048 + i.val) * 64 + d.val
  rw [hk0, hk1, hk2]

/-! ## The program's result -/

/-- The kernel program's result as one function of the three arguments. -/
def GKernel (q k v : SArg.Idx → EReal) : SArg.Idx → EReal := fun x =>
  attend (fun j => scoreFolded (fun e => q (ix4 (x 0) (x 1) (x 2) e)) (fun e => k (ix4 (x 0) (x 1) j e))
      * par ((x 2).val % 256) j.val)
    (fun j => v (ix4 (x 0) (x 1) j (x 3)))

/-- The result viewed back over (batch, head, row, feature) is `GKernel` of the arguments. -/
theorem split_GK (c : Dev nD) :
    shapeCast S2x16x2048x64 (GK (V m c main_v0) (V m c main_v1) (V m c main_v2) (V m c main_v14)) Gen.shapeCasts_S32x2048x64_S2x16x2048x64
      = GKernel (m ((c : Thread nD τ).loc main_arg0)) (m ((c : Thread nD τ).loc main_arg1)) (m ((c : Thread nD τ).loc main_arg2)) := by
  funext x
  obtain ⟨b, h, i, d, rfl⟩ : ∃ (b : Fin 2) (h : Fin 16) (i : Fin 2048) (d : Fin 64), x = ix4 b h i d :=
    ⟨x 0, x 1, x 2, x 3, eq_ix4 x⟩
  have hbh : b.val * 16 + h.val < 32 := by have := b.isLt; have := h.isLt; omega
  rw [split_apply _ b h i d (ix3 (⟨b.val * 16 + h.val, hbh⟩ : Fin 32) i d) rfl rfl rfl]
  unfold GK GKernel
  rw [V_q, V_k, V_v, V_mask]
  refine congrArg₂ attend (funext fun j => ?_) (funext fun j => ?_)
  · rw [maskTile_apply]
    refine congrArg (· * _) (congrArg₂ scoreFolded (funext fun e => ?_) (funext fun e => ?_))
    · exact merged_apply _ b h i e _ rfl rfl rfl
    · exact merged_apply _ b h j e _ rfl rfl rfl
  · exact merged_apply _ b h j d _ rfl rfl rfl

/-- The operation after the region, applied to what the region left. -/
theorem tail_eq (c : Dev nD) :
    (Pipeline.afterTail₀ cfgs (dats m) 0 (V0 m) [hostOps1] c main_v16 : S2x16x2048x64.Idx → EReal)
      = GKernel (m ((c : Thread nD τ).loc main_arg0)) (m ((c : Thread nD τ).loc main_arg1)) (m ((c : Thread nD τ).loc main_arg2)) := by
  rw [← split_GK m c, ← final m c]
  unfold Pipeline.afterTail₀
  show StableHlo.after hostOps1 _ (Proc.devRef .tc main_v16) = _
  after_results
  have e := Pipeline.withArrays_arr (cfgs 0).spec launch0.win.arr_inj c (V0 m c) (fun w => (dats m 0 c).arrAt w (cfgs 0).N) 4
  funext x
  show shapeCast S2x16x2048x64 (Pipeline.withArrays (cfgs 0).spec c (V0 m c) (fun w => (dats m 0 c).arrAt w (cfgs 0).N) (Proc.devRef .tc main_v15)) Gen.shapeCasts_S32x2048x64_S2x16x2048x64 x = _
  exact congrFun (congrArg (fun A : S32x2048x64.Idx → EReal => shapeCast S2x16x2048x64 A Gen.shapeCasts_S32x2048x64_S2x16x2048x64) e) x

/-- The kernel program's run: every weakly fair execution ends with the result at `GKernel` of the arguments and the
    arguments as launched. -/
theorem run : θ_run (Cert.KernelIdeal.defs (F := Ideal)) (onTc (τ := τ) (Cert.KernelIdeal.main (F := Ideal))) ⟨m, fun _ => 0, ρ⟩
    (fun r => ∀ c : Dev nD,
      r.2.mem ((c.tc : Thread nD τ).loc main_v16)
          = GKernel (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.KernelIdeal.defs _ _).mono (fun r h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.DilatedAttention.Kernel

end
-- ==== Proof.RefRun.lean ====
/-
  The reference program's run. Its @main is a straight line of fifty-seven StableHLO host operations: the scaled
  scores `q · kᵀ / sqrt 64`, a parity mask built from two iotas (`|row - column|`, its remainder by 2 through the
  module-local function @remainder, which itself calls @_where, compared with zero and converted to f32), the
  masked scores, a softmax along the last axis (row maximum, subtraction, exponential, row sum, division) and the
  product with `v`. Nothing is launched: every step is a pure function of earlier buffers, so the run is the
  library's statement for a list of operations (`StableHlo.run_seq`): every weakly fair execution terminates and
  each buffer ends at the fold of the operations over the launch contents (`StableHlo.after`). The two functions'
  bodies are listed inline at the call, over the call's buffer record; the fold at the result buffer is the
  composed term `out`, at each argument buffer the argument itself.
-/
import proofs.«177172_j31129922962203_2_alg».proof.ReferenceIdeal
import proofs.«177172_j31129922962203_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's fifty-seven operations in order. The fourteen before the call (the first product, the scale, the two
    iotas and their broadcasts, the difference, its absolute value, the constant 2); @remainder's twenty-one over the
    call's record `main_call0`, its operands `main_v11` and `main_c` (the divisor converted to its own type; `_where`'s
    one select, replacing a zero divisor by one, over `main_call0.call0`; the host remainder; then the sign
    correction: where the remainder is non-zero and its sign differs from the divisor's, the divisor is added); the
    twenty-two after it (the comparison with zero, the conversion, the mask's two broadcasts, the product, the
    softmax, the second product). -/
abbrev ops : List (HloOp τ sig (Elt F)) :=
  [
    binary main_arg0 main_arg1 main_v0 ((fun l r => Host.dotGeneral dot_S2x16x2048x64_S2x16x2048x64_S2x16x2048x2048_3_3_2_2_01_01 none l r) : (⟨S2x16x2048x64, .f32⟩ : BufTy).Contents (Elt F) → (⟨S2x16x2048x64, .f32⟩ : BufTy).Contents (Elt F) → (⟨S2x16x2048x2048, .f32⟩ : BufTy).Contents (Elt F)),
    nullary main_cst (constant S_ .f32 0x42800000#32),
    unary main_cst main_v1 (Host.sqrt : (⟨S_, .f32⟩ : BufTy).Contents (Elt F) → (⟨S_, .f32⟩ : BufTy).Contents (Elt F)),
    unary main_v1 main_v2 (broadcastInDim S2x16x2048x2048 ![] bcast_S_S2x16x2048x2048 : (⟨S_, .f32⟩ : BufTy).Contents (Elt F) → (⟨S2x16x2048x2048, .f32⟩ : BufTy).Contents (Elt F)),
    binary main_v0 main_v2 main_v3 (Host.divf : (⟨S2x16x2048x2048, .f32⟩ : BufTy).Contents (Elt F) → (⟨S2x16x2048x2048, .f32⟩ : BufTy).Contents (Elt F) → (⟨S2x16x2048x2048, .f32⟩ : BufTy).Contents (Elt F)),
    nullary main_v4 (iotaInDim S2048 32 0),
    unary main_v4 main_v5 (broadcastInDim S2048x1 ![0] bcast_S2048_S2048x1_0 : (⟨S2048, .i32⟩ : BufTy).Contents (Elt F) → (⟨S2048x1, .i32⟩ : BufTy).Contents (Elt F)),
    nullary main_v6 (iotaInDim S2048 32 0),
    unary main_v6 main_v7 (broadcastInDim S1x2048 ![1] bcast_S2048_S1x2048_1 : (⟨S2048, .i32⟩ : BufTy).Contents (Elt F) → (⟨S1x2048, .i32⟩ : BufTy).Contents (Elt F)),
    unary main_v5 main_v8 (broadcastInDim S2048x2048 ![0, 1] bcast_S2048x1_S2048x2048_0_1 : (⟨S2048x1, .i32⟩ : BufTy).Contents (Elt F) → (⟨S2048x2048, .i32⟩ : BufTy).Contents (Elt F)),
    unary main_v7 main_v9 (broadcastInDim S2048x2048 ![0, 1] bcast_S1x2048_S2048x2048_0_1 : (⟨S1x2048, .i32⟩ : BufTy).Contents (Elt F) → (⟨S2048x2048, .i32⟩ : BufTy).Contents (Elt F)),
    binary main_v8 main_v9 main_v10 (subi : (⟨S2048x2048, .i32⟩ : BufTy).Contents (Elt F) → (⟨S2048x2048, .i32⟩ : BufTy).Contents (Elt F) → (⟨S2048x2048, .i32⟩ : BufTy).Contents (Elt F)),
    unary main_v10 main_v11 (absi : (⟨S2048x2048, .i32⟩ : BufTy).Contents (Elt F) → (⟨S2048x2048, .i32⟩ : BufTy).Contents (Elt F)),
    nullary main_c (constantI S_ 32 2#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2048x2048 ![] bcast_S_S2048x2048),
    TRef.binary (.of main_v11) main_call0.v3 main_call0.v4 Host.remsi,
    TRef.nullary main_call0.c_1 (constantI S_ 32 0#32),
    TRef.unary main_call0.c_1 main_call0.v5 (broadcastInDim S2048x2048 ![] bcast_S_S2048x2048),
    TRef.binary main_call0.v4 main_call0.v5 main_call0.v6 (cmpi .ne),
    TRef.nullary main_call0.c_2 (constantI S_ 32 0#32),
    TRef.unary main_call0.c_2 main_call0.v7 (broadcastInDim S2048x2048 ![] bcast_S_S2048x2048),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2048x2048 ![] bcast_S_S2048x2048),
    TRef.binary main_call0.v8 main_call0.v10 main_call0.v11 (cmpi .ne),
    TRef.binary main_call0.v11 main_call0.v6 main_call0.v12 andi,
    TRef.unary main_call0.call0.v0 main_call0.v13 (broadcastInDim S2048x2048 ![] bcast_S_S2048x2048),
    TRef.binary main_call0.v4 main_call0.v13 main_call0.v14 addi,
    TRef.ternary main_call0.v12 main_call0.v14 main_call0.v4 main_call0.v15 select,
    nullary main_c_0 (constantI S_ 32 0#32),
    unary main_c_0 main_v13 (broadcastInDim S2048x2048 ![] bcast_S_S2048x2048 : (⟨S_, .i32⟩ : BufTy).Contents (Elt F) → (⟨S2048x2048, .i32⟩ : BufTy).Contents (Elt F)),
    binary main_v12 main_v13 main_v14 (cmpi .eq : (⟨S2048x2048, .i32⟩ : BufTy).Contents (Elt F) → (⟨S2048x2048, .i32⟩ : BufTy).Contents (Elt F) → (⟨S2048x2048, .i1⟩ : BufTy).Contents (Elt F)),
    unary main_v14 main_v15 (uitofp .f32 : (⟨S2048x2048, .i1⟩ : BufTy).Contents (Elt F) → (⟨S2048x2048, .f32⟩ : BufTy).Contents (Elt F)),
    unary main_v15 main_v16 (broadcastInDim S1x1x2048x2048 ![2, 3] bcast_S2048x2048_S1x1x2048x2048_2_3 : (⟨S2048x2048, .f32⟩ : BufTy).Contents (Elt F) → (⟨S1x1x2048x2048, .f32⟩ : BufTy).Contents (Elt F)),
    unary main_v16 main_v17 (broadcastInDim S2x16x2048x2048 ![0, 1, 2, 3] bcast_S1x1x2048x2048_S2x16x2048x2048_0_1_2_3 : (⟨S1x1x2048x2048, .f32⟩ : BufTy).Contents (Elt F) → (⟨S2x16x2048x2048, .f32⟩ : BufTy).Contents (Elt F)),
    binary main_v3 main_v17 main_v18 (mulf : (⟨S2x16x2048x2048, .f32⟩ : BufTy).Contents (Elt F) → (⟨S2x16x2048x2048, .f32⟩ : BufTy).Contents (Elt F) → (⟨S2x16x2048x2048, .f32⟩ : BufTy).Contents (Elt F)),
    nullary main_cst_1 (constant S_ .f32 0xFF800000#32),
    binary main_v18 main_cst_1 main_v19 ((fun x v => Host.reduce FloatOps.maximumf x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    nullary main_cst_2 (constant S_ .f32 0xFF800000#32),
    unary main_cst_2 main_v20 (broadcastInDim S2x16x2048 ![] bcast_S_S2x16x2048 : (⟨S_, .f32⟩ : BufTy).Contents (Elt F) → (⟨S2x16x2048, .f32⟩ : BufTy).Contents (Elt F)),
    binary main_v20 main_v19 main_v21 (maximumf : (⟨S2x16x2048, .f32⟩ : BufTy).Contents (Elt F) → (⟨S2x16x2048, .f32⟩ : BufTy).Contents (Elt F) → (⟨S2x16x2048, .f32⟩ : BufTy).Contents (Elt F)),
    unary main_v21 main_v22 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v22 main_v23 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v18 main_v23 main_v24 (subf : (⟨S2x16x2048x2048, .f32⟩ : BufTy).Contents (Elt F) → (⟨S2x16x2048x2048, .f32⟩ : BufTy).Contents (Elt F) → (⟨S2x16x2048x2048, .f32⟩ : BufTy).Contents (Elt F)),
    unary main_v24 main_v25 (Host.exp : (⟨S2x16x2048x2048, .f32⟩ : BufTy).Contents (Elt F) → (⟨S2x16x2048x2048, .f32⟩ : BufTy).Contents (Elt F)),
    nullary main_cst_3 (constant S_ .f32 0x00000000#32),
    binary main_v25 main_cst_3 main_v26 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    unary main_v26 main_v27 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v27 main_v28 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v25 main_v28 main_v29 (Host.divf : (⟨S2x16x2048x2048, .f32⟩ : BufTy).Contents (Elt F) → (⟨S2x16x2048x2048, .f32⟩ : BufTy).Contents (Elt F) → (⟨S2x16x2048x2048, .f32⟩ : BufTy).Contents (Elt F)),
    binary main_v29 main_arg2 main_v30 ((fun l r => Host.dotGeneral dot_S2x16x2048x2048_S2x16x2048x64_S2x16x2048x64_3_2_2_3_01_01 none l r) : (⟨S2x16x2048x2048, .f32⟩ : BufTy).Contents (Elt F) → (⟨S2x16x2048x64, .f32⟩ : BufTy).Contents (Elt F) → (⟨S2x16x2048x64, .f32⟩ : BufTy).Contents (Elt F)) ]

-- fifty-seven binds re-associated: `simp`'s rewrite under the chain recurses once per statement
set_option maxRecDepth 1024 in
/-- @main is that straight line: the two functions' definitions unfolded at their calls and the records at their
    fields, both sides are one chain of `hlo` steps once sequencing is reassociated (`bind_assoc`, `pure_bind`). -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., unary_bufs_sub .., unary_bufs_sub .., binary_bufs_sub .., nullary_bufs_sub ..,
    unary_bufs_sub .., nullary_bufs_sub .., unary_bufs_sub .., unary_bufs_sub .., unary_bufs_sub .., binary_bufs_sub ..,
    unary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., unary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..⟩

/-- The parity mask: with `a = |row - column|` (two iotas broadcast along either axis of the 2048×2048 square,
    subtracted, the absolute value), the host remainder `r = a rem 2` — the divisor passed through @remainder's
    conversion to its own type (the identity) and @_where's guard (1 where it is 0) —, corrected as @remainder does
    (`r + 2` where `r ≠ 0` and the signs of `r` and of the divisor differ, `r` elsewhere), compared with the zero
    splat and converted to f32: 1 where `row - column` is even, 0 where it is odd. The composition of the
    operations %4 … %15 as the fold computes it. -/
def mask : FVec F S2048x2048 .f32 :=
  uitofp .f32
    (cmpi .eq
      (select
        (andi
          (cmpi .ne
            (cmpi .slt
              (Host.remsi
                (absi
                  (subi
                    (broadcastInDim S2048x2048 ![0, 1] bcast_S2048x1_S2048x2048_0_1 (broadcastInDim S2048x1 ![0] bcast_S2048_S2048x1_0 (iotaInDim S2048 32 0)))
                    (broadcastInDim S2048x2048 ![0, 1] bcast_S1x2048_S2048x2048_0_1 (broadcastInDim S1x2048 ![1] bcast_S2048_S1x2048_1 (iotaInDim S2048 32 0)))))
                (broadcastInDim S2048x2048 ![] bcast_S_S2048x2048 (select (cmpi .eq (id (constantI S_ 32 2#32)) (constantI S_ 32 0#32)) (constantI S_ 32 1#32) (id (constantI S_ 32 2#32)))))
              (broadcastInDim S2048x2048 ![] bcast_S_S2048x2048 (constantI S_ 32 0#32)))
            (broadcastInDim S2048x2048 ![] bcast_S_S2048x2048 (cmpi .slt (select (cmpi .eq (id (constantI S_ 32 2#32)) (constantI S_ 32 0#32)) (constantI S_ 32 1#32) (id (constantI S_ 32 2#32))) (constantI S_ 32 0#32))))
          (cmpi .ne
            (Host.remsi
              (absi
                (subi
                  (broadcastInDim S2048x2048 ![0, 1] bcast_S2048x1_S2048x2048_0_1 (broadcastInDim S2048x1 ![0] bcast_S2048_S2048x1_0 (iotaInDim S2048 32 0)))
                  (broadcastInDim S2048x2048 ![0, 1] bcast_S1x2048_S2048x2048_0_1 (broadcastInDim S1x2048 ![1] bcast_S2048_S1x2048_1 (iotaInDim S2048 32 0)))))
              (broadcastInDim S2048x2048 ![] bcast_S_S2048x2048 (select (cmpi .eq (id (constantI S_ 32 2#32)) (constantI S_ 32 0#32)) (constantI S_ 32 1#32) (id (constantI S_ 32 2#32)))))
            (broadcastInDim S2048x2048 ![] bcast_S_S2048x2048 (constantI S_ 32 0#32))))
        (addi
          (Host.remsi
            (absi
              (subi
                (broadcastInDim S2048x2048 ![0, 1] bcast_S2048x1_S2048x2048_0_1 (broadcastInDim S2048x1 ![0] bcast_S2048_S2048x1_0 (iotaInDim S2048 32 0)))
                (broadcastInDim S2048x2048 ![0, 1] bcast_S1x2048_S2048x2048_0_1 (broadcastInDim S1x2048 ![1] bcast_S2048_S1x2048_1 (iotaInDim S2048 32 0)))))
            (broadcastInDim S2048x2048 ![] bcast_S_S2048x2048 (select (cmpi .eq (id (constantI S_ 32 2#32)) (constantI S_ 32 0#32)) (constantI S_ 32 1#32) (id (constantI S_ 32 2#32)))))
          (broadcastInDim S2048x2048 ![] bcast_S_S2048x2048 (select (cmpi .eq (id (constantI S_ 32 2#32)) (constantI S_ 32 0#32)) (constantI S_ 32 1#32) (id (constantI S_ 32 2#32)))))
        (Host.remsi
          (absi
            (subi
              (broadcastInDim S2048x2048 ![0, 1] bcast_S2048x1_S2048x2048_0_1 (broadcastInDim S2048x1 ![0] bcast_S2048_S2048x1_0 (iotaInDim S2048 32 0)))
              (broadcastInDim S2048x2048 ![0, 1] bcast_S1x2048_S2048x2048_0_1 (broadcastInDim S1x2048 ![1] bcast_S2048_S1x2048_1 (iotaInDim S2048 32 0)))))
          (broadcastInDim S2048x2048 ![] bcast_S_S2048x2048 (select (cmpi .eq (id (constantI S_ 32 2#32)) (constantI S_ 32 0#32)) (constantI S_ 32 1#32) (id (constantI S_ 32 2#32))))))
      (broadcastInDim S2048x2048 ![] bcast_S_S2048x2048 (constantI S_ 32 0#32)))

/-- The result: the scores `q · kᵀ` (contracted over the last axis, batched over the first two) divided by
    `sqrt 64`, times the mask broadcast over the two batch axes; minus their row maximum (the reduction from `-∞`,
    then the maximum with the `-∞` splat), exponentiated; divided by their row sum (the reduction from 0); times `v`
    (contracted over the key axis). The composition of all the operations as the fold computes it. -/
def out (q k v : FVec F S2x16x2048x64 .f32) : FVec F S2x16x2048x64 .f32 :=
  Host.dotGeneral dot_S2x16x2048x2048_S2x16x2048x64_S2x16x2048x64_3_2_2_3_01_01 none
    (Host.divf
      (Host.exp
        (subf
          (mulf
            (Host.divf (Host.dotGeneral dot_S2x16x2048x64_S2x16x2048x64_S2x16x2048x2048_3_3_2_2_01_01 none q k)
              (broadcastInDim S2x16x2048x2048 ![] bcast_S_S2x16x2048x2048 (Host.sqrt (constant S_ .f32 0x42800000#32))))
            (broadcastInDim S2x16x2048x2048 ![0, 1, 2, 3] bcast_S1x1x2048x2048_S2x16x2048x2048_0_1_2_3
              (broadcastInDim S1x1x2048x2048 ![2, 3] bcast_S2048x2048_S1x1x2048x2048_2_3 mask)))
          (broadcastInDim S2x16x2048x2048 ![0, 1, 2, 3] bcast_S2x16x2048x1_S2x16x2048x2048_0_1_2_3
            (broadcastInDim S2x16x2048x1 ![0, 1, 2] bcast_S2x16x2048_S2x16x2048x1_0_1_2
              (maximumf (broadcastInDim S2x16x2048 ![] bcast_S_S2x16x2048 (constant S_ .f32 0xFF800000#32))
                (Host.reduce FloatOps.maximumf
                  (mulf
                    (Host.divf (Host.dotGeneral dot_S2x16x2048x64_S2x16x2048x64_S2x16x2048x2048_3_3_2_2_01_01 none q k)
                      (broadcastInDim S2x16x2048x2048 ![] bcast_S_S2x16x2048x2048 (Host.sqrt (constant S_ .f32 0x42800000#32))))
                    (broadcastInDim S2x16x2048x2048 ![0, 1, 2, 3] bcast_S1x1x2048x2048_S2x16x2048x2048_0_1_2_3
                      (broadcastInDim S1x1x2048x2048 ![2, 3] bcast_S2048x2048_S1x1x2048x2048_2_3 mask)))
                  (constant S_ .f32 0xFF800000#32) reducesTo_S2x16x2048x2048_S2x16x2048_d3 h_S_))))))
      (broadcastInDim S2x16x2048x2048 ![0, 1, 2, 3] bcast_S2x16x2048x1_S2x16x2048x2048_0_1_2_3
        (broadcastInDim S2x16x2048x1 ![0, 1, 2] bcast_S2x16x2048_S2x16x2048x1_0_1_2
          (Host.reduceAdd
            (Host.exp
              (subf
                (mulf
                  (Host.divf (Host.dotGeneral dot_S2x16x2048x64_S2x16x2048x64_S2x16x2048x2048_3_3_2_2_01_01 none q k)
                    (broadcastInDim S2x16x2048x2048 ![] bcast_S_S2x16x2048x2048 (Host.sqrt (constant S_ .f32 0x42800000#32))))
                  (broadcastInDim S2x16x2048x2048 ![0, 1, 2, 3] bcast_S1x1x2048x2048_S2x16x2048x2048_0_1_2_3
                    (broadcastInDim S1x1x2048x2048 ![2, 3] bcast_S2048x2048_S1x1x2048x2048_2_3 mask)))
                (broadcastInDim S2x16x2048x2048 ![0, 1, 2, 3] bcast_S2x16x2048x1_S2x16x2048x2048_0_1_2_3
                  (broadcastInDim S2x16x2048x1 ![0, 1, 2] bcast_S2x16x2048_S2x16x2048x1_0_1_2
                    (maximumf (broadcastInDim S2x16x2048 ![] bcast_S_S2x16x2048 (constant S_ .f32 0xFF800000#32))
                      (Host.reduce FloatOps.maximumf
                        (mulf
                          (Host.divf (Host.dotGeneral dot_S2x16x2048x64_S2x16x2048x64_S2x16x2048x2048_3_3_2_2_01_01 none q k)
                            (broadcastInDim S2x16x2048x2048 ![] bcast_S_S2x16x2048x2048 (Host.sqrt (constant S_ .f32 0x42800000#32))))
                          (broadcastInDim S2x16x2048x2048 ![0, 1, 2, 3] bcast_S1x1x2048x2048_S2x16x2048x2048_0_1_2_3
                            (broadcastInDim S1x1x2048x2048 ![2, 3] bcast_S2048x2048_S1x1x2048x2048_2_3 mask)))
                        (constant S_ .f32 0xFF800000#32) reducesTo_S2x16x2048x2048_S2x16x2048_d3 h_S_))))))
            (constant S_ .f32 0x00000000#32) reducesTo_S2x16x2048x2048_S2x16x2048_d3 h_S_))))
    v

attribute [local irreducible] Host.reduce Host.reduceAdd in
set_option maxRecDepth 8192 in
set_option maxHeartbeats 400000 in
/-- The fold at the result buffer is `out`: each operation's `HloOp.result` is its function's value at the buffer it
    writes and what was there at any other (the references' inequalities decided), rewritten in one pass so that a
    shared intermediate is visited once; what is left differs from `out` only in the typed references' transports
    along `ty_eq` inside @remainder's part, the identity at these literal references, so the two sides are
    definitionally equal. The two reductions are kept folded meanwhile: their bodies are folds over the operand's
    elements, which the equation never looks inside (the two products are a field of the float operations, which
    does not unfold). -/
theorem out_eq (V : Valuation τ sig (Elt F)) :
    after ops V (main_v30 : DevRef τ sig)
      = out (V (main_arg0 : DevRef τ sig)) (V (main_arg1 : DevRef τ sig)) (V (main_arg2 : DevRef τ sig)) := by
  after_results_simp
  rfl

/-- No operation writes an argument buffer: the fold there is the launch contents. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-- On every device, for any float values, from any memory with zero counters: every weakly fair execution of
    @main terminates with the result buffer at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v30) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v30).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.RefValue.lean ====
/-
  The reference's result, read at an index over the extended reals, is the specification's function.

  The result term of the reference's run (the composition of its host operations) is a function of the three argument
  arrays. At the ideal values every operation is its textbook one, so at batch `b`, head `h`, row `i` and feature `d`
  the term unfolds operation by operation: a broadcast reads its operand at the coordinates its dimension list names,
  the elementwise operations act at the index, each product is a sum over its one contracted axis, the row sum is the
  sum over the last axis from zero, and the row maximum is the fold of `max` over the last axis from the bottom
  element. The integer side chain gives the parity indicator of the two positions. Put together these are the scaled,
  masked scores under the softmax with the row maximum subtracted, applied to the value rows.
-/
import proofs.«177172_j31129922962203_2_alg».proof.Proof.RefRun
import proofs.«177172_j31129922962203_2_alg».proof.Proof.Spec
import proofs.«177172_j31129922962203_2_alg».proof.Proof.MaskBits
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The parity mask -/

/-- The unsigned conversion of a one-bit word at the ideal values: the word one is 1, the word zero is 0. -/
theorem uitofp_bit (c : Prop) [Decidable c] :
    FloatOps.uitofp (F := Ideal) .f32 (if c then 1#1 else 0#1) = if c then (1 : EReal) else 0 := by
  by_cases h : c
  · rw [if_pos h, if_pos h]; show (((1#1 : BitVec 1).toNat : ℝ) : EReal) = 1; simp
  · rw [if_neg h, if_neg h]; show (((0#1 : BitVec 1).toNat : ℝ) : EReal) = 0; simp

/-- The mask at row `i` and column `j`: the integer chain is pointwise, so at the index it is the chain of word
    operations on the two positions' words, whose last bit is one exactly when the positions have the same parity. -/
theorem mask_apply (i j : Fin 2048) : RefRun.mask (F := Ideal) (ix2 i j) = Cert.DilatedAttention.par i.val j.val := by
  have h : RefRun.mask (F := Ideal) (ix2 i j)
      = FloatOps.uitofp (F := Ideal) .f32 (Cert.DilatedAttention.parityBit (IntOp.subi (BitVec.ofNat 32 i.val) (BitVec.ofNat 32 j.val))) := rfl
  rw [h, Cert.DilatedAttention.parityBit_sub i.val j.val i.isLt j.isLt, uitofp_bit]
  rfl

/-! ## The layout operations at an index -/

/-- The mask broadcast over the two batch axes reads the square at the row and the key position. -/
theorem batchB_apply {α : Type} (m : S2048x2048.Idx → α) (b : Fin 2) (h : Fin 16) (i j : Fin 2048) :
    broadcastInDim S2x16x2048x2048 ![0, 1, 2, 3] bcast_S1x1x2048x2048_S2x16x2048x2048_0_1_2_3
        (broadcastInDim S1x1x2048x2048 ![2, 3] bcast_S2048x2048_S1x1x2048x2048_2_3 m) (ix4 b h i j)
      = m (ix2 i j) := by
  refine (broadcastInDim_apply _ bcast_S1x1x2048x2048_S2x16x2048x2048_0_1_2_3 _ (ix4 b h i j)
    (ix4 (0 : Fin 1) (0 : Fin 1) i j) fun a => ?_).trans ?_
  · match a with
    | ⟨0, _⟩ => rfl
    | ⟨1, _⟩ => rfl
    | ⟨2, _⟩ => rfl
    | ⟨3, _⟩ => rfl
  refine broadcastInDim_apply _ bcast_S2048x2048_S1x1x2048x2048_2_3 m (ix4 (0 : Fin 1) (0 : Fin 1) i j) (ix2 i j) fun a => ?_
  match a with
  | ⟨0, _⟩ => rfl
  | ⟨1, _⟩ => rfl

/-- A per-row value kept as a trailing unit axis and spread over the key positions reads the row's value. -/
theorem rowB_apply {α : Type} (r : S2x16x2048.Idx → α) (b : Fin 2) (h : Fin 16) (i j : Fin 2048) :
    broadcastInDim S2x16x2048x2048 ![0, 1, 2, 3] bcast_S2x16x2048x1_S2x16x2048x2048_0_1_2_3
        (broadcastInDim S2x16x2048x1 ![0, 1, 2] bcast_S2x16x2048_S2x16x2048x1_0_1_2 r) (ix4 b h i j)
      = r (ix3 b h i) := by
  refine (broadcastInDim_apply _ bcast_S2x16x2048x1_S2x16x2048x2048_0_1_2_3 _ (ix4 b h i j)
    (ix4 b h i (0 : Fin 1)) fun a => ?_).trans ?_
  · match a with
    | ⟨0, _⟩ => rfl
    | ⟨1, _⟩ => rfl
    | ⟨2, _⟩ => rfl
    | ⟨3, _⟩ => rfl
  refine broadcastInDim_apply _ bcast_S2x16x2048_S2x16x2048x1_0_1_2 r (ix4 b h i (0 : Fin 1)) (ix3 b h i) fun a => ?_
  match a with
  | ⟨0, _⟩ => rfl
  | ⟨1, _⟩ => rfl
  | ⟨2, _⟩ => rfl

/-! ## The two products -/

/-- The scores' product: queries against keys, batched over batch and head, contracted over the 64 features. -/
abbrev DQK := dot_S2x16x2048x64_S2x16x2048x64_S2x16x2048x2048_3_3_2_2_01_01
/-- The output's product: weights against values, batched over batch and head, contracted over the 2048 key positions. -/
abbrev DPV := dot_S2x16x2048x2048_S2x16x2048x64_S2x16x2048x64_3_2_2_3_01_01

/-- The first product at batch `b`, head `h`, row `i`, key position `j`: the dot product of the two rows. -/
theorem qk_apply (q k : FVec Ideal S2x16x2048x64 .f32) (b : Fin 2) (h : Fin 16) (i j : Fin 2048) :
    Host.dotGeneral (F := Ideal) DQK none q k (ix4 b h i j) = ∑ e : Fin 64, q (ix4 b h i e) * k (ix4 b h j e) := by
  simp only [Host.dotGeneral]
  refine (Ideal.dotGeneral_apply DQK none .single q k (ix4 b h i j)).trans ?_
  refine ((contrEquiv1 DQK 64 rfl rfl).symm.sum_comp _).symm.trans ?_
  refine Finset.sum_congr rfl fun e _ => ?_
  have h1 : DQK.lhsIdx (ix4 b h i j) ((contrEquiv1 DQK 64 rfl rfl).symm e) = ix4 b h i e := by
    funext a; apply Fin.ext
    match a with
    | ⟨0, _⟩ => rfl
    | ⟨1, _⟩ => rfl
    | ⟨2, _⟩ => rfl
    | ⟨3, _⟩ => exact contrEquiv1_symm_val DQK 64 rfl rfl e
  have h2 : DQK.rhsIdx (ix4 b h i j) ((contrEquiv1 DQK 64 rfl rfl).symm e) = ix4 b h j e := by
    funext a; apply Fin.ext
    match a with
    | ⟨0, _⟩ => rfl
    | ⟨1, _⟩ => rfl
    | ⟨2, _⟩ => rfl
    | ⟨3, _⟩ => exact contrEquiv1_symm_val DQK 64 rfl rfl e
  rw [h1, h2]

/-- The second product at batch `b`, head `h`, row `i`, feature `d`: the weights' row against the values' column. -/
theorem pv_apply (p : FVec Ideal S2x16x2048x2048 .f32) (v : FVec Ideal S2x16x2048x64 .f32) (b : Fin 2) (h : Fin 16)
    (i : Fin 2048) (d : Fin 64) :
    Host.dotGeneral (F := Ideal) DPV none p v (ix4 b h i d) = ∑ j : Fin 2048, p (ix4 b h i j) * v (ix4 b h j d) := by
  simp only [Host.dotGeneral]
  refine (Ideal.dotGeneral_apply DPV none .single p v (ix4 b h i d)).trans ?_
  refine ((contrEquiv1 DPV 2048 rfl rfl).symm.sum_comp _).symm.trans ?_
  refine Finset.sum_congr rfl fun j _ => ?_
  have h1 : DPV.lhsIdx (ix4 b h i d) ((contrEquiv1 DPV 2048 rfl rfl).symm j) = ix4 b h i j := by
    funext a; apply Fin.ext
    match a with
    | ⟨0, _⟩ => rfl
    | ⟨1, _⟩ => rfl
    | ⟨2, _⟩ => rfl
    | ⟨3, _⟩ => exact contrEquiv1_symm_val DPV 2048 rfl rfl j
  have h2 : DPV.rhsIdx (ix4 b h i d) ((contrEquiv1 DPV 2048 rfl rfl).symm j) = ix4 b h j d := by
    funext a; apply Fin.ext
    match a with
    | ⟨0, _⟩ => rfl
    | ⟨1, _⟩ => rfl
    | ⟨2, _⟩ => exact contrEquiv1_symm_val DPV 2048 rfl rfl j
    | ⟨3, _⟩ => rfl
  rw [h1, h2]

/-! ## The two reductions over the key positions -/

/-- The last axis of the score array is dropped by both reductions. -/
theorem reduces_keys : S2x16x2048x2048.Reduces [3] S2x16x2048 := by decide

/-- A reduced index with key position `k` put back. -/
theorem lift_keys (b : Fin 2) (h : Fin 16) (i : Fin 2048) (k : Fin 2048) :
    reduces_keys.lift (ix3 b h i) k = ix4 b h i k := by
  funext c; apply Fin.ext
  match c with
  | ⟨0, _⟩ => rfl
  | ⟨1, _⟩ => rfl
  | ⟨2, _⟩ => rfl
  | ⟨3, _⟩ => rfl

/-- The row sum from zero: the sum over the key positions. -/
theorem rowSum_apply (x : FVec Ideal S2x16x2048x2048 .f32) (b : Fin 2) (h : Fin 16) (i : Fin 2048) :
    Host.reduceAdd (F := Ideal) x (constant S_ .f32 0x00000000#32) reducesTo_S2x16x2048x2048_S2x16x2048_d3 h_S_ (ix3 b h i)
      = ∑ j : Fin 2048, x (ix4 b h i j) := by
  unfold Host.reduceAdd
  rw [Ideal.hostReduceAdd_def]
  refine (Ideal.hostReduceAdd_single reducesTo_S2x16x2048x2048_S2x16x2048_d3 reduces_keys x _ (ix3 b h i)).trans ?_
  rw [constant_apply, Ideal.ofBits_zero_f32, zero_add]
  exact Finset.sum_congr rfl fun k _ => congrArg x (lift_keys b h i k)

/-- The row maximum from `-∞`: the fold of `max` over the key positions from the bottom element. -/
theorem rowMax_apply (x : FVec Ideal S2x16x2048x2048 .f32) (b : Fin 2) (h : Fin 16) (i : Fin 2048) :
    Host.reduce FloatOps.maximumf x (constant (F := Ideal) S_ .f32 0xFF800000#32) reducesTo_S2x16x2048x2048_S2x16x2048_d3 h_S_ (ix3 b h i)
      = Cert.DilatedAttention.rowMax fun j => x (ix4 b h i j) := by
  rw [Host.reduce_eq_fold_single FloatOps.maximumf x _ reducesTo_S2x16x2048x2048_S2x16x2048_d3 reduces_keys h_S_]
  have hb : Ideal.ofBits .f32 0xFF800000#32 = (⊥ : EReal) := by simp [Ideal.ofBits, Ideal.ieee]
  have hf : (x ∘ reduces_keys.lift (ix3 b h i)) = fun j : Fin 2048 => x (ix4 b h i j) :=
    funext fun k => congrArg x (lift_keys b h i k)
  rw [constant_apply, hb]
  unfold Cert.DilatedAttention.rowMax
  exact congrArg (fun f => Finset.fold max (⊥ : EReal) f (Finset.univ : Finset (Fin 2048))) hf

/-! ## The reference's intermediate arrays -/

theorem hostExp_apply {s : Shape} (x : FVec Ideal s .f32) (p : s.Idx) : Host.exp (F := Ideal) x p = Ideal.exp (x p) := rfl

theorem hostDivf_apply {s : Shape} (x y : FVec Ideal s .f32) (p : s.Idx) :
    Host.divf (F := Ideal) x y p = Ideal.div (x p) (y p) := rfl

/-- The scaled, masked scores: the first product over the square root of 64, times the mask. -/
def sc (q k : FVec Ideal S2x16x2048x64 .f32) : FVec Ideal S2x16x2048x2048 .f32 :=
  mulf
    (Host.divf (Host.dotGeneral DQK none q k)
      (broadcastInDim S2x16x2048x2048 ![] bcast_S_S2x16x2048x2048 (Host.sqrt (constant S_ .f32 0x42800000#32))))
    (broadcastInDim S2x16x2048x2048 ![0, 1, 2, 3] bcast_S1x1x2048x2048_S2x16x2048x2048_0_1_2_3
      (broadcastInDim S1x1x2048x2048 ![2, 3] bcast_S2048x2048_S1x1x2048x2048_2_3 RefRun.mask))

/-- The row maximum of an array of scores: the reduction from `-∞`, then the maximum with the `-∞` splat. -/
def mx (s : FVec Ideal S2x16x2048x2048 .f32) : FVec Ideal S2x16x2048 .f32 :=
  maximumf (broadcastInDim S2x16x2048 ![] bcast_S_S2x16x2048 (constant S_ .f32 0xFF800000#32))
    (Host.reduce FloatOps.maximumf s (constant S_ .f32 0xFF800000#32) reducesTo_S2x16x2048x2048_S2x16x2048_d3 h_S_)

/-- The exponentials of the scores less their row maximum. -/
def ex (s : FVec Ideal S2x16x2048x2048 .f32) : FVec Ideal S2x16x2048x2048 .f32 :=
  Host.exp
    (subf s
      (broadcastInDim S2x16x2048x2048 ![0, 1, 2, 3] bcast_S2x16x2048x1_S2x16x2048x2048_0_1_2_3
        (broadcastInDim S2x16x2048x1 ![0, 1, 2] bcast_S2x16x2048_S2x16x2048x1_0_1_2 (mx s))))

/-- The softmax weights: the exponentials over their row sum. -/
def wt (s : FVec Ideal S2x16x2048x2048 .f32) : FVec Ideal S2x16x2048x2048 .f32 :=
  Host.divf (ex s)
    (broadcastInDim S2x16x2048x2048 ![0, 1, 2, 3] bcast_S2x16x2048x1_S2x16x2048x2048_0_1_2_3
      (broadcastInDim S2x16x2048x1 ![0, 1, 2] bcast_S2x16x2048_S2x16x2048x1_0_1_2
        (Host.reduceAdd (ex s) (constant S_ .f32 0x00000000#32) reducesTo_S2x16x2048x2048_S2x16x2048_d3 h_S_)))

/-- The result term is the second product of those weights of those scores with the values: the same term, its
    repeated parts named. -/
theorem out_unfold (q k v : FVec Ideal S2x16x2048x64 .f32) :
    RefRun.out (F := Ideal) q k v = Host.dotGeneral DPV none (wt (sc q k)) v := rfl

/-- The scores at batch `b`, head `h`, row `i`, key position `j`. -/
theorem sc_apply (q k : FVec Ideal S2x16x2048x64 .f32) (b : Fin 2) (h : Fin 16) (i j : Fin 2048) :
    sc q k (ix4 b h i j)
      = Cert.DilatedAttention.score (fun e => q (ix4 b h i e)) (fun e => k (ix4 b h j e)) * Cert.DilatedAttention.par i.val j.val := by
  unfold sc
  rw [mulf_apply, batchB_apply, mask_apply, hostDivf_apply, qk_apply]
  rfl

/-- The row maximum at batch `b`, head `h`, row `i`: the `-∞` splat is the bottom element, which `max` absorbs. -/
theorem mx_apply (s : FVec Ideal S2x16x2048x2048 .f32) (b : Fin 2) (h : Fin 16) (i : Fin 2048) :
    mx s (ix3 b h i) = Cert.DilatedAttention.rowMax fun j => s (ix4 b h i j) := by
  unfold mx
  rw [maximumf_apply, rowMax_apply]
  have hb : broadcastInDim S2x16x2048 ![] bcast_S_S2x16x2048 (constant (F := Ideal) S_ .f32 0xFF800000#32) (ix3 b h i) = (⊥ : EReal) := by
    show Ideal.ofBits .f32 0xFF800000#32 = (⊥ : EReal)
    simp [Ideal.ofBits, Ideal.ieee]
  rw [hb]
  exact max_eq_right bot_le

theorem ex_apply (s : FVec Ideal S2x16x2048x2048 .f32) (b : Fin 2) (h : Fin 16) (i j : Fin 2048) :
    ex s (ix4 b h i j) = Ideal.exp (s (ix4 b h i j) - Cert.DilatedAttention.rowMax fun j' => s (ix4 b h i j')) := by
  unfold ex
  rw [hostExp_apply, subf_apply, rowB_apply, mx_apply]

theorem wt_apply (s : FVec Ideal S2x16x2048x2048 .f32) (b : Fin 2) (h : Fin 16) (i j : Fin 2048) :
    wt s (ix4 b h i j)
      = Ideal.div (Ideal.exp (s (ix4 b h i j) - Cert.DilatedAttention.rowMax fun j' => s (ix4 b h i j')))
          (∑ j' : Fin 2048, Ideal.exp (s (ix4 b h i j') - Cert.DilatedAttention.rowMax fun j'' => s (ix4 b h i j''))) := by
  unfold wt
  rw [hostDivf_apply, ex_apply, rowB_apply, rowSum_apply]
  simp only [ex_apply]

/-! ## The result -/

/-- The reference's result is the specification's function of the three arguments. -/
theorem out_eq_G (q k v : FVec Ideal S2x16x2048x64 .f32) : RefRun.out (F := Ideal) q k v = Cert.DilatedAttention.G q k v := by
  funext x
  obtain ⟨b, h, i, d, rfl⟩ : ∃ (b : Fin 2) (h : Fin 16) (i : Fin 2048) (d : Fin 64), x = ix4 b h i d :=
    ⟨x 0, x 1, x 2, x 3, eq_ix4 x⟩
  rw [out_unfold, pv_apply]
  show _ = Cert.DilatedAttention.attend
      (fun j => Cert.DilatedAttention.score (fun e => q (ix4 b h i e)) (fun e => k (ix4 b h j e)) * Cert.DilatedAttention.par i.val j.val)
      (fun j => v (ix4 b h j d))
  unfold Cert.DilatedAttention.attend
  refine Finset.sum_congr rfl fun j _ => ?_
  rw [wt_apply]
  simp only [sc_apply]

end Cert.ReferenceIdeal.RefValue

end
-- ==== Proof.Bridge.lean ====
/-
  The two laws that join the kernel's arrangement to the reference's.

  First, the scale. The kernel multiplies each query entry by one eighth before the dot product; the reference divides
  the dot product by the square root of 64, which is 8. On real entries both are the dot product times one eighth: the
  factor moves across the finite sum by distributivity, which is where finiteness of the entries is used (on the
  extended reals it fails at the infinities). Second, the mask. The kernel's mask tile is indexed by the local row
  `i mod 256`; since 256 is even, `i mod 256` and `i` have the same parity, so the indicator is the reference's.
-/
import proofs.«177172_j31129922962203_2_alg».proof.Proof.Spec
import Mathlib.Analysis.SpecialFunctions.Sqrt
import Mathlib.Tactic

noncomputable section

namespace Cert.DilatedAttention

open Idealize.ShloMosaic

/-- The word `0x3E000000` denotes one eighth. -/
theorem ofBits_eighth : Ideal.ofBits .f32 0x3E000000#32 = ((1 / 8 : ℝ) : EReal) := by
  simp [Ideal.ofBits, Ideal.ieee, -EReal.coe_mul]; norm_num

/-- The word `0x42800000` denotes 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  have h : Real.sqrt 64 = 8 := by
    rw [show (64 : ℝ) = 8 ^ 2 by norm_num]
    exact Real.sqrt_sq (by norm_num)
  rw [h]

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- On real rows, scaling the query by one eighth before the dot product is dividing the dot product by the square
    root of 64. -/
theorem scoreFolded_eq_score (q k : Fin 64 → EReal) (hq : ∀ e, ∃ r : ℝ, q e = (r : EReal)) (hk : ∀ e, ∃ r : ℝ, k e = (r : EReal)) :
    scoreFolded q k = score q k := by
  choose qr hqr using hq
  choose kr hkr using hk
  unfold scoreFolded score
  rw [ofBits_eighth, ofBits_64, sqrt_64, Ideal.div_coe (by norm_num : (8 : ℝ) ≠ 0)]
  have h1 : ∀ e, (q e * ((1 / 8 : ℝ) : EReal)) * k e = ((qr e * (1 / 8) * kr e : ℝ) : EReal) := by
    intro e; rw [hqr e, hkr e, ← EReal.coe_mul, ← EReal.coe_mul]
  have h2 : ∀ e, q e * k e = ((qr e * kr e : ℝ) : EReal) := by
    intro e; rw [hqr e, hkr e, ← EReal.coe_mul]
  rw [Finset.sum_congr rfl (fun e _ => h1 e), Finset.sum_congr rfl (fun e _ => h2 e), coe_sum, coe_sum, ← EReal.coe_mul]
  refine congrArg _ ?_
  rw [Finset.sum_mul]
  exact Finset.sum_congr rfl fun e _ => by ring

/-- A row and its position inside its tile of 256 rows have the same parity. -/
theorem par_mod (i j : ℕ) : par (i % 256) j = par i j := by
  unfold par
  have h : (i % 256 + j) % 2 = (i + j) % 2 := by omega
  rw [h]

end Cert.DilatedAttention

end
-- ==== Proof.Finite.lean ====
/-
  The precondition read as a fact about the entries: every entry of the three argument arrays is a real number.

  The precondition is the conjunction, over the three arrays, of "every entry's absolute value is below plus infinity";
  an extended real whose absolute value is below plus infinity is neither infinity, hence a real.
-/
import proofs.«177172_j31129922962203_2_alg».proof.Pre_finite_inputs
import proofs.«177172_j31129922962203_2_alg».proof.Proof.Gen.Pre_finite_inputs
import Idealize.ShloMosaic.PureOps.Ideal
import Idealize.ShloMosaic.Lib.ReduceAll
import Idealize.ShloMosaic.Lib.ValueIdx

namespace Cert.DilatedAttention

open Idealize.ShloMosaic

/-- The rank-0 shape has one index. -/
instance : Subsingleton Cert.Pre_finite_inputs.S_.Idx := ⟨fun a b => funext fun d => d.elim0⟩

/-- An extended real whose absolute value max x (-x) is below plus infinity is neither infinity: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- The bit pattern 0x7F800000 denotes plus infinity. -/
theorem ofBits_inf : Ideal.ofBits .f32 0x7F800000#32 = (⊤ : EReal) := by
  simp [Ideal.ofBits, Ideal.ieee]

/-- One array: if the conjunction over all entries of "|x i| < +infinity" is 1, every entry is a real. -/
theorem real_of_all [Cert.Pre_finite_inputs.Facts]
    (x : FVec Ideal Cert.Pre_finite_inputs.S2x16x2048x64 .f32) (init : IVec Cert.Pre_finite_inputs.S_ 1)
    (j : Cert.Pre_finite_inputs.S_.Idx)
    (e : Host.reduce IntOp.andi
          (cmpf .olt (Host.absf x)
            (broadcastInDim Cert.Pre_finite_inputs.S2x16x2048x64 ![]
              Cert.Pre_finite_inputs.Facts.bcast_S_S2x16x2048x64
              (constant Cert.Pre_finite_inputs.S_ .f32 0x7F800000#32)))
          init Cert.Pre_finite_inputs.Facts.reducesTo_S2x16x2048x64_S_d0_1_2_3
          Cert.Pre_finite_inputs.Facts.h_S_ j = 1#1) :
    ∀ i, ∃ r : ℝ, x i = (r : EReal) := by
  intro i
  have hi := Host.reduce_andi_all _ _ _ _ j e i
  -- the entry of the compared array at i is the comparison of |x i| with the constant
  have hc : Ideal.cmp .olt (max (x i : EReal) (-(x i : EReal))) (Ideal.ofBits .f32 0x7F800000#32) = 1#1 := hi
  rw [ofBits_inf] at hc
  unfold Ideal.cmp at hc
  apply real_of_abs_lt_top
  by_contra hn
  simp [hn] at hc

/-- Under the precondition every entry of each argument array is the coercion of a real number. -/
theorem real_of_pre [Cert.Pre_finite_inputs.Facts]
    (q k v : FVec Ideal Cert.Pre_finite_inputs.S2x16x2048x64 .f32)
    (h : Cert.Pre_finite_inputs.fn (F := Ideal) q k v = fun _ => 1#1) :
    (∀ i, ∃ r : ℝ, q i = (r : EReal)) ∧ (∀ i, ∃ r : ℝ, k i = (r : EReal)) ∧ (∀ i, ∃ r : ℝ, v i = (r : EReal)) := by
  have e := congrFun h ValueIdx.ix0
  dsimp only [Cert.Pre_finite_inputs.fn, andi] at e
  rw [IntOp.andi_eq_one, IntOp.andi_eq_one] at e
  obtain ⟨⟨eq, ek⟩, ev⟩ := e
  exact ⟨real_of_all q _ _ eq, real_of_all k _ _ ek, real_of_all v _ _ ev⟩

end Cert.DilatedAttention
-- ==== Proof.lean ====
/-
  Dilated attention on the accelerator against its array-language reference, over the extended reals.

  Both programs compute, at batch `b`, head `h`, query row `i` and feature `d`, the softmax-weighted sum of the head's
  value rows at `d`, the weights those of the row of scores "query row `i` dotted with key row `j`, over the square root
  of 64, times the parity indicator of `i + j`" (`Cert.DilatedAttention.G`). The reference does so on whole arrays.
  The kernel merges batch and head, walks 32 heads × 8 tiles of 256 query rows, scales the query rows by one eighth
  before the product, and multiplies by a 256 × 2048 mask tile computed once from local row numbers. Its result is
  the same function with the scale folded into the query and the indicator taken at `i mod 256`
  (`Cert.DilatedAttention.Kernel.GKernel`); the two agree on real inputs because one eighth moves across the finite
  dot product and because `i mod 256` has the parity of `i`. The precondition makes every input entry real. The three
  programs run to completion with their arguments unchanged; no operation was rewritten on the way to the idealized
  kernel.
-/
import proofs.«177172_j31129922962203_2_alg».proof.Defs
import proofs.«177172_j31129922962203_2_alg».proof.Proof.Gen.Kernel
import proofs.«177172_j31129922962203_2_alg».proof.Proof.Gen.Kernel.Frame
import proofs.«177172_j31129922962203_2_alg».proof.Proof.Gen.KernelIdeal
import proofs.«177172_j31129922962203_2_alg».proof.Proof.Gen.KernelIdeal.Frame
import proofs.«177172_j31129922962203_2_alg».proof.Proof.Gen.ReferenceIdeal
import proofs.«177172_j31129922962203_2_alg».proof.Proof.Gen.Pre_finite_inputs
import proofs.«177172_j31129922962203_2_alg».proof.Proof.KernelHost
import proofs.«177172_j31129922962203_2_alg».proof.Proof.RefRun
import proofs.«177172_j31129922962203_2_alg».proof.Proof.RefValue
import proofs.«177172_j31129922962203_2_alg».proof.Proof.Bridge
import proofs.«177172_j31129922962203_2_alg».proof.Proof.Finite
import Idealize.ShloMosaic.Adequacy
import Idealize.ShloMosaic.Init

noncomputable section

namespace Cert.Proof

open Idealize.ShloMosaic Idealize.ShloMosaic.TcCoe Idealize.SL.Sem Cert.DilatedAttention

/-- On real query and key entries the kernel's arrangement is the specification. -/
theorem GKernel_eq_G (q k v : SArg.Idx → EReal) (hq : ∀ i, ∃ r : ℝ, q i = (r : EReal)) (hk : ∀ i, ∃ r : ℝ, k i = (r : EReal)) :
    Kernel.GKernel q k v = G q k v := by
  funext x
  unfold Kernel.GKernel G
  refine congrArg₂ attend (funext fun j => ?_) rfl
  rw [par_mod, scoreFolded_eq_score _ _ (fun e => hq _) (fun e => hk _)]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealized programs end with the result at one function of the arguments: the kernel's run gives `GKernel`,
    the reference's gives `G`, and on the real entries the precondition grants they are equal. -/
theorem algebraic : Cert.algebraic_KernelIdeal_ReferenceIdeal := by
  intro m ρ m' ρ' hpre hagree
  refine ⟨fun c => Kernel.GKernel (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Kernel.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.ReferenceIdeal.RefValue.out_eq_G]
  obtain ⟨hq, hk, -⟩ := real_of_pre _ _ _ (hpre c)
  exact (GKernel_eq_G _ _ _ hq hk).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
